-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S64x10 : Shape := ⟨2, ![64, 10]⟩
abbrev S10 : Shape := ⟨1, ![10]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part4 {F : FTy → Type} [FloatOps F] (main_arg16 : FVec F S64 .f32) (main_arg17 : FVec F S64x10 .f32) (main_arg18 : FVec F S10 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x10 .f32 := Host.absf main_arg17
  let main_cst_28 : FVec F S_ .f32 := constant S_ .f32 0x7F800000#32
  let main_v75 : FVec F S64x10 .f32 := broadcastInDim S64x10 ![] bcast_S_S64x10 main_cst_28
  let main_v76 : IVec S64x10 1 := cmpf .olt main_v74 main_v75
  let main_c_29 : IVec S_ 1 := constantI S_ 1 1#1
  let main_v77 : IVec S_ 1 := (fun x v => Host.reduce IntOp.andi x v reducesTo_S64x10_S_d0_1 h_S_) main_v76 main_c_29
  let main_v78 : IVec S_ 1 := andi main_v73 main_v77
  let main_v79 : FVec F S10 .f32 := Host.absf main_arg18
  let main_cst_30 : FVec F S_ .f32 := constant S_ .f32 0x7F800000#32
  let main_v80 : FVec F S10 .f32 := broadcastInDim S10 ![] bcast_S_S10 main_cst_30
  let main_v81 : IVec S10 1 := cmpf .olt main_v79 main_v80
  let main_c_31 : IVec S_ 1 := constantI S_ 1 1#1
  let main_v82 : IVec S_ 1 := (fun x v => Host.reduce IntOp.andi x v reducesTo_S10_S_d0 h_S_) main_v81 main_c_31
  let main_v83 : IVec S_ 1 := andi main_v78 main_v82
  main_v83

def fn_part3 {F : FTy → Type} [FloatOps F] (main_arg13 : FVec F S64x64 .f32) (main_arg14 : FVec F S64 .f32) (main_arg15 : FVec F S64x64 .f32) (main_arg16 : FVec F S64 .f32) (main_arg17 : FVec F S64x10 .f32) (main_arg18 : FVec F S10 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg13
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x64 .f32 := Host.absf main_arg15
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg16 main_arg17 main_arg18 main_v63 main_v67

def fn_part2 {F : FTy → Type} [FloatOps F] (main_arg9 : FVec F S64x64 .f32) (main_arg10 : FVec F S64 .f32) (main_arg11 : FVec F S64x64 .f32) (main_arg12 : FVec F S64 .f32) (main_arg13 : FVec F S64x64 .f32) (main_arg14 : FVec F S64 .f32) (main_arg15 : FVec F S64x64 .f32) (main_arg16 : FVec F S64 .f32) (main_arg17 : FVec F S64x10 .f32) (main_arg18 : FVec F S10 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_arg17 main_arg18 main_v48 main_v49 main_v50

def fn_part1 {F : FTy → Type} [FloatOps F] (main_arg6 : FVec F S64 .f32) (main_arg7 : FVec F S64x64 .f32) (main_arg8 : FVec F S64 .f32) (main_arg9 : FVec F S64x64 .f32) (main_arg10 : FVec F S64 .f32) (main_arg11 : FVec F S64x64 .f32) (main_arg12 : FVec F S64 .f32) (main_arg13 : FVec F S64x64 .f32) (main_arg14 : FVec F S64 .f32) (main_arg15 : FVec F S64x64 .f32) (main_arg16 : FVec F S64 .f32) (main_arg17 : FVec F S64x10 .f32) (main_arg18 : FVec F S10 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_v33

def fn {F : FTy → Type} [FloatOps F] (main_arg0 : FVec F S100000x64 .f32) (main_arg1 : IVec S2x1600000 32) (main_arg2 : IVec S100000 32) (main_arg3 : FVec F S64x64 .f32) (main_arg4 : FVec F S64 .f32) (main_arg5 : FVec F S64x64 .f32) (main_arg6 : FVec F S64 .f32) (main_arg7 : FVec F S64x64 .f32) (main_arg8 : FVec F S64 .f32) (main_arg9 : FVec F S64x64 .f32) (main_arg10 : FVec F S64 .f32) (main_arg11 : FVec F S64x64 .f32) (main_arg12 : FVec F S64 .f32) (main_arg13 : FVec F S64x64 .f32) (main_arg14 : FVec F S64 .f32) (main_arg15 : FVec F S64x64 .f32) (main_arg16 : FVec F S64 .f32) (main_arg17 : FVec F S64x10 .f32) (main_arg18 : FVec F S10 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_arg13 main_arg14 main_arg15 main_arg16 main_arg17 main_arg18 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S64x10 : Shape := ⟨2, ![64, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S10000x64 : Shape := ⟨2, ![10000, 64]⟩
abbrev S128x64 : Shape := ⟨2, ![128, 64]⟩
abbrev S100000x1 : Shape := ⟨2, ![100000, 1]⟩
abbrev S1x10 : Shape := ⟨2, ![1, 10]⟩
abbrev S128x10 : Shape := ⟨2, ![128, 10]⟩

abbrev nBuf : Space → Nat
  | .hbm => 78
  | .vmem => 36
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64x64, .f32⟩
  | .hbm, ⟨14, _⟩ => ⟨S64, .f32⟩
  | .hbm, ⟨15, _⟩ => ⟨S64x64, .f32⟩
  | .hbm, ⟨16, _⟩ => ⟨S64, .f32⟩
  | .hbm, ⟨17, _⟩ => ⟨S64x10, .f32⟩
  | .hbm, ⟨18, _⟩ => ⟨S10, .f32⟩
  | .hbm, ⟨19, _⟩ => ⟨S1x1600000, .i32⟩
  | .hbm, ⟨20, _⟩ => ⟨S1600000, .i32⟩
  | .hbm, ⟨21, _⟩ => ⟨S1x1600000, .i32⟩
  | .hbm, ⟨22, _⟩ => ⟨S1600000, .i32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000x64, .f32⟩
  | .hbm, ⟨32, _⟩ => ⟨S_, .f32⟩
  | .hbm, ⟨33, _⟩ => ⟨S100000x64, .f32⟩
  | .hbm, ⟨34, _⟩ => ⟨S1600000x1, .i32⟩
  | .hbm, ⟨35, _⟩ => ⟨S100000x64, .f32⟩
  | .hbm, ⟨36, _⟩ => ⟨S1x64, .f32⟩
  | .hbm, ⟨37, _⟩ => ⟨S1x64, .f32⟩
  | .hbm, ⟨38, _⟩ => ⟨S100000x64, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x64, .f32⟩
  | .hbm, ⟨48, _⟩ => ⟨S_, .f32⟩
  | .hbm, ⟨49, _⟩ => ⟨S100000x64, .f32⟩
  | .hbm, ⟨50, _⟩ => ⟨S1600000x1, .i32⟩
  | .hbm, ⟨51, _⟩ => ⟨S100000x64, .f32⟩
  | .hbm, ⟨52, _⟩ => ⟨S1x64, .f32⟩
  | .hbm, ⟨53, _⟩ => ⟨S1x64, .f32⟩
  | .hbm, ⟨54, _⟩ => ⟨S100000x64, .f32⟩
  | .hbm, ⟨55, _⟩ => ⟨S_, .i32⟩
  | .hbm, ⟨56, _⟩ => ⟨S1600000, .i32⟩
  | .hbm, ⟨57, _⟩ => ⟨S1600000, .i1⟩
  | .hbm, ⟨58, _⟩ => ⟨S_, .i32⟩
  | .hbm, ⟨59, _⟩ => ⟨S1600000, .i32⟩
  | .hbm, ⟨60, _⟩ => ⟨S1600000, .i32⟩
  | .hbm, ⟨61, _⟩ => ⟨S1600000, .i32⟩
  | .hbm, ⟨62, _⟩ => ⟨S1600000x1, .i32⟩
  | .hbm, ⟨63, _⟩ => ⟨S1600000x64, .f32⟩
  | .hbm, ⟨64, _⟩ => ⟨S_, .f32⟩
  | .hbm, ⟨65, _⟩ => ⟨S100000x64, .f32⟩
  | .hbm, ⟨66, _⟩ => ⟨S1600000x1, .i32⟩
  | .hbm, ⟨67, _⟩ => ⟨S100000x64, .f32⟩
  | .hbm, ⟨68, _⟩ => ⟨S1x64, .f32⟩
  | .hbm, ⟨69, _⟩ => ⟨S1x64, .f32⟩
  | .hbm, ⟨70, _⟩ => ⟨S100000x64, .f32⟩
  | .hbm, ⟨71, _⟩ => ⟨S_, .f32⟩
  | .hbm, ⟨72, _⟩ => ⟨S128x64, .f32⟩
  | .hbm, ⟨73, _⟩ => ⟨S100000x1, .i32⟩
  | .hbm, ⟨74, _⟩ => ⟨S128x64, .f32⟩
  | .hbm, ⟨75, _⟩ => ⟨S1x64, .f32⟩
  | .hbm, ⟨76, _⟩ => ⟨S1x10, .f32⟩
  | .hbm, ⟨77, _⟩ => ⟨S128x10, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S64x64, .f32⟩
  | .local _ .vmem, ⟨15, _⟩ => ⟨S1x64, .f32⟩
  | .local _ .vmem, ⟨16, _⟩ => ⟨S64x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S64x64, .f32⟩
  | .local _ .vmem, ⟨25, _⟩ => ⟨S1x64, .f32⟩
  | .local _ .vmem, ⟨26, _⟩ => ⟨S64x64, .f32⟩
  | .local _ .vmem, ⟨27, _⟩ => ⟨S1x64, .f32⟩
  | .local _ .vmem, ⟨28, _⟩ => ⟨S10000x64, .f32⟩
  | .local _ .vmem, ⟨29, _⟩ => ⟨S10000x64, .f32⟩
  | .local _ .vmem, ⟨30, _⟩ => ⟨S128x64, .f32⟩
  | .local _ .vmem, ⟨31, _⟩ => ⟨S64x64, .f32⟩
  | .local _ .vmem, ⟨32, _⟩ => ⟨S1x64, .f32⟩
  | .local _ .vmem, ⟨33, _⟩ => ⟨S64x10, .f32⟩
  | .local _ .vmem, ⟨34, _⟩ => ⟨S1x10, .f32⟩
  | .local _ .vmem, ⟨35, _⟩ => ⟨S128x10, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_c_1 : Ref sig .tc := ⟨.hbm, 39, rfl⟩
abbrev main_v17 : Ref sig .tc := ⟨.hbm, 40, rfl⟩
abbrev main_v18 : Ref sig .tc := ⟨.hbm, 41, rfl⟩
abbrev main_c_2 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_cst_3 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_c_4 : Ref sig .tc := ⟨.hbm, 55, rfl⟩
abbrev main_v30 : Ref sig .tc := ⟨.hbm, 56, rfl⟩
abbrev main_v31 : Ref sig .tc := ⟨.hbm, 57, rfl⟩
abbrev main_c_5 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_6 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_7 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg1_0 : Ref sig .tc := ⟨.vmem, 31, rfl⟩
abbrev cc3_stg2_0 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc3_sem0_0 : DmaSem sig := 30
abbrev cc3_sem1_0 : DmaSem sig := 31
abbrev cc3_sem2_0 : DmaSem sig := 32
abbrev cc3_sem3_0 : DmaSem sig := 33
abbrev cc3_sem4_0 : DmaSem sig := 34
abbrev cc3_sem5_0 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S10000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S128x64 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x10 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x10 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x10 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  bcast_S_S128x64 : S_.BroadcastsInDim S128x64 (![] : Fin 0 → Fin S128x64.rank)
  bcast_S100000_S100000x1_0 : S100000.BroadcastsInDim S100000x1 (![0] : Fin 1 → Fin S100000x1.rank)
  shapeCasts_S10_S1x10 : S10.ShapeCasts S1x10
  inb_S128x64_S128x64_0_0 : ∀ a, (![0, 0] : Fin 2 → Nat) a + S128x64.size a ≤ S128x64.size a
  h_S128x64 : 0 < S128x64.numel
  shapeCasts_S128x64_S128x64 : S128x64.ShapeCasts S128x64
  broadcasts_S1x64_S128x64 : S1x64.Broadcasts S128x64
  inb_S64x10_S64x10_0_0 : ∀ a, (![0, 0] : Fin 2 → Nat) a + S64x10.size a ≤ S64x10.size a
  h_S64x10 : 0 < S64x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S128x10 : S1x10.Broadcasts S128x10
  inb_S128x10_S128x10_0_0 : ∀ a, (![0, 0] : Fin 2 → Nat) a + S128x10.size a ≤ S128x10.size a
  h_S128x10 : 0 < S128x10.numel
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  scatter_S128x64_S100000x1_S100000x64_1_0_0_1_wf : ScatterDims.WF S128x64 S100000x1 S100000x64 [1] [0] [0] 1
  dot_S128x64_S64x64_S128x64_1_0_0_1_n_n_wf : DotDims.WF S128x64 S64x64 S128x64 [1] [0] [0] [1] [] []
  dot_S128x64_S64x10_S128x10_1_0_0_1_n_n_wf : DotDims.WF S128x64 S64x10 S128x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x64.size a ≤ S100000x64.size a
  hwx0_6 : ∀ i : grid0.Coords, EltTy.bits .f32 = 32 ∨ (Rect.block (s := S100000x64) S10000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x64.size a ≤ S100000x64.size a
  hwx1_6 : ∀ i : grid1.Coords, EltTy.bits .f32 = 32 ∨ (Rect.block (s := S100000x64) S10000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S10000x64.size a ≤ S100000x64.size a
  hwx2_6 : ∀ i : grid2.Coords, EltTy.bits .f32 = 32 ∨ (Rect.block (s := S100000x64) S10000x64.size (cc2_transform_6 i) (hinb2_6 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S128x64.size a ≤ S128x64.size a
  hwx3_0 : ∀ i : grid3.Coords, EltTy.bits .f32 = 32 ∨ (Rect.block (s := S128x64) S128x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x10.size a ≤ S64x10.size a
  hwx3_3 : ∀ i : grid3.Coords, EltTy.bits .f32 = 32 ∨ (Rect.block (s := S64x10) S64x10.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x10.size a ≤ S1x10.size a
  hwx3_4 : ∀ i : grid3.Coords, EltTy.bits .f32 = 32 ∨ (Rect.block (s := S1x10) S1x10.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x10.size a ≤ S128x10.size a
  hwx3_5 : ∀ i : grid3.Coords, EltTy.bits .f32 = 32 ∨ (Rect.block (s := S128x10) S128x10.size (cc3_transform_5 i) (hinb3_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def dot_S128x64_S64x64_S128x64_1_0_0_1_n_n : DotDims S128x64 S64x64 S128x64 where
  lhsContracting := [1]
  rhsContracting := [0]
  lhsNonContracting := [0]
  rhsNonContracting := [1]
  lhsBatch := []
  rhsBatch := []
  wf := dot_S128x64_S64x64_S128x64_1_0_0_1_n_n_wf
def dot_S128x64_S64x10_S128x10_1_0_0_1_n_n : DotDims S128x64 S64x10 S128x10 where
  lhsContracting := [1]
  rhsContracting := [0]
  lhsNonContracting := [0]
  rhsNonContracting := [1]
  lhsBatch := []
  rhsBatch := []
  wf := dot_S128x64_S64x10_S128x10_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S10000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v16) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S10000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v29) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg11) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg13) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v41) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v42) S10000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v45) S128x64.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg15) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v46) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg17) S64x10.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v47) S1x10.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v48) S128x10.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S64x10 : Shape := ⟨2, ![64, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S128x64 : Shape := ⟨2, ![128, 64]⟩
abbrev S100000x1 : Shape := ⟨2, ![100000, 1]⟩
abbrev S128x10 : Shape := ⟨2, ![128, 10]⟩
abbrev S1x10 : Shape := ⟨2, ![1, 10]⟩

abbrev nBuf : Space → Nat
  | .hbm => 113
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64x64, .f32⟩
  | .hbm, ⟨14, _⟩ => ⟨S64, .f32⟩
  | .hbm, ⟨15, _⟩ => ⟨S64x64, .f32⟩
  | .hbm, ⟨16, _⟩ => ⟨S64, .f32⟩
  | .hbm, ⟨17, _⟩ => ⟨S64x10, .f32⟩
  | .hbm, ⟨18, _⟩ => ⟨S10, .f32⟩
  | .hbm, ⟨19, _⟩ => ⟨S1x1600000, .i32⟩
  | .hbm, ⟨20, _⟩ => ⟨S1600000, .i32⟩
  | .hbm, ⟨21, _⟩ => ⟨S1x1600000, .i32⟩
  | .hbm, ⟨22, _⟩ => ⟨S1600000, .i32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000x64, .f32⟩
  | .hbm, ⟨32, _⟩ => ⟨S_, .f32⟩
  | .hbm, ⟨33, _⟩ => ⟨S100000x64, .f32⟩
  | .hbm, ⟨34, _⟩ => ⟨S1600000x1, .i32⟩
  | .hbm, ⟨35, _⟩ => ⟨S100000x64, .f32⟩
  | .hbm, ⟨36, _⟩ => ⟨S100000x64, .f32⟩
  | .hbm, ⟨37, _⟩ => ⟨S100000x64, .f32⟩
  | .hbm, ⟨38, _⟩ => ⟨S1x64, .f32⟩
  | .hbm, ⟨39, _⟩ => ⟨S100000x64, .f32⟩
  | .hbm, ⟨40, _⟩ => ⟨S100000x64, .f32⟩
  | .hbm, ⟨41, _⟩ => ⟨S_, .f32⟩
  | .hbm, ⟨42, _⟩ => ⟨S100000x64, .f32⟩
  | .hbm, ⟨43, _⟩ => ⟨S100000x64, .f32⟩
  | .hbm, ⟨44, _⟩ => ⟨S100000x64, .f32⟩
  | .hbm, ⟨45, _⟩ => ⟨S1x64, .f32⟩
  | .hbm, ⟨46, _⟩ => ⟨S100000x64, .f32⟩
  | .hbm, ⟨47, _⟩ => ⟨S100000x64, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x64, .f32⟩
  | .hbm, ⟨57, _⟩ => ⟨S_, .f32⟩
  | .hbm, ⟨58, _⟩ => ⟨S100000x64, .f32⟩
  | .hbm, ⟨59, _⟩ => ⟨S1600000x1, .i32⟩
  | .hbm, ⟨60, _⟩ => ⟨S100000x64, .f32⟩
  | .hbm, ⟨61, _⟩ => ⟨S100000x64, .f32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x64, .f32⟩
  | .hbm, ⟨70, _⟩ => ⟨S1x64, .f32⟩
  | .hbm, ⟨71, _⟩ => ⟨S100000x64, .f32⟩
  | .hbm, ⟨72, _⟩ => ⟨S100000x64, .f32⟩
  | .hbm, ⟨73, _⟩ => ⟨S_, .i32⟩
  | .hbm, ⟨74, _⟩ => ⟨S1600000, .i32⟩
  | .hbm, ⟨75, _⟩ => ⟨S1600000, .i1⟩
  | .hbm, ⟨76, _⟩ => ⟨S_, .i32⟩
  | .hbm, ⟨77, _⟩ => ⟨S1600000, .i32⟩
  | .hbm, ⟨78, _⟩ => ⟨S1600000, .i32⟩
  | .hbm, ⟨79, _⟩ => ⟨S1600000, .i32⟩
  | .hbm, ⟨80, _⟩ => ⟨S1600000x1, .i32⟩
  | .hbm, ⟨81, _⟩ => ⟨S1600000x64, .f32⟩
  | .hbm, ⟨82, _⟩ => ⟨S_, .f32⟩
  | .hbm, ⟨83, _⟩ => ⟨S100000x64, .f32⟩
  | .hbm, ⟨84, _⟩ => ⟨S1600000x1, .i32⟩
  | .hbm, ⟨85, _⟩ => ⟨S100000x64, .f32⟩
  | .hbm, ⟨86, _⟩ => ⟨S100000x64, .f32⟩
  | .hbm, ⟨87, _⟩ => ⟨S100000x64, .f32⟩
  | .hbm, ⟨88, _⟩ => ⟨S1x64, .f32⟩
  | .hbm, ⟨89, _⟩ => ⟨S100000x64, .f32⟩
  | .hbm, ⟨90, _⟩ => ⟨S100000x64, .f32⟩
  | .hbm, ⟨91, _⟩ => ⟨S_, .f32⟩
  | .hbm, ⟨92, _⟩ => ⟨S100000x64, .f32⟩
  | .hbm, ⟨93, _⟩ => ⟨S100000x64, .f32⟩
  | .hbm, ⟨94, _⟩ => ⟨S100000x64, .f32⟩
  | .hbm, ⟨95, _⟩ => ⟨S1x64, .f32⟩
  | .hbm, ⟨96, _⟩ => ⟨S100000x64, .f32⟩
  | .hbm, ⟨97, _⟩ => ⟨S100000x64, .f32⟩
  | .hbm, ⟨98, _⟩ => ⟨S_, .f32⟩
  | .hbm, ⟨99, _⟩ => ⟨S128x64, .f32⟩
  | .hbm, ⟨100, _⟩ => ⟨S100000x1, .i32⟩
  | .hbm, ⟨101, _⟩ => ⟨S128x64, .f32⟩
  | .hbm, ⟨102, _⟩ => ⟨S128x64, .f32⟩
  | .hbm, ⟨103, _⟩ => ⟨S1x64, .f32⟩
  | .hbm, ⟨104, _⟩ => ⟨S128x64, .f32⟩
  | .hbm, ⟨105, _⟩ => ⟨S128x64, .f32⟩
  | .hbm, ⟨106, _⟩ => ⟨S_, .f32⟩
  | .hbm, ⟨107, _⟩ => ⟨S128x64, .f32⟩
  | .hbm, ⟨108, _⟩ => ⟨S128x64, .f32⟩
  | .hbm, ⟨109, _⟩ => ⟨S128x10, .f32⟩
  | .hbm, ⟨110, _⟩ => ⟨S1x10, .f32⟩
  | .hbm, ⟨111, _⟩ => ⟨S128x10, .f32⟩
  | .hbm, ⟨112, _⟩ => ⟨S128x10, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_1 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_c_2 : Ref sig .tc := ⟨.hbm, 48, rfl⟩
abbrev main_v25 : Ref sig .tc := ⟨.hbm, 49, rfl⟩
abbrev main_v26 : Ref sig .tc := ⟨.hbm, 50, rfl⟩
abbrev main_c_3 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_4 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_5 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_c_6 : Ref sig .tc := ⟨.hbm, 73, rfl⟩
abbrev main_v46 : Ref sig .tc := ⟨.hbm, 74, rfl⟩
abbrev main_v47 : Ref sig .tc := ⟨.hbm, 75, rfl⟩
abbrev main_c_7 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_8 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_9 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_10 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_11 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S128x64 : S_.BroadcastsInDim S128x64 (![] : Fin 0 → Fin S128x64.rank)
  bcast_S100000_S100000x1_0 : S100000.BroadcastsInDim S100000x1 (![0] : Fin 1 → Fin S100000x1.rank)
  bcast_S1x64_S128x64_0_1 : S1x64.BroadcastsInDim S128x64 (![0, 1] : Fin 2 → Fin S128x64.rank)
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  scatter_S128x64_S100000x1_S100000x64_1_0_0_1_wf : ScatterDims.WF S128x64 S100000x1 S100000x64 [1] [0] [0] 1
  dot_S128x64_S64x64_S128x64_1_0_0_1_n_n_wf : DotDims.WF S128x64 S64x64 S128x64 [1] [0] [0] [1] [] []
  dot_S128x64_S64x10_S128x10_1_0_0_1_n_n_wf : DotDims.WF S128x64 S64x10 S128x10 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def dot_S128x64_S64x64_S128x64_1_0_0_1_n_n : DotDims S128x64 S64x64 S128x64 where
  lhsContracting := [1]
  rhsContracting := [0]
  lhsNonContracting := [0]
  rhsNonContracting := [1]
  lhsBatch := []
  rhsBatch := []
  wf := dot_S128x64_S64x64_S128x64_1_0_0_1_n_n_wf
def dot_S128x64_S64x10_S128x10_1_0_0_1_n_n : DotDims S128x64 S64x10 S128x10 where
  lhsContracting := [1]
  rhsContracting := [0]
  lhsNonContracting := [0]
  rhsNonContracting := [1]
  lhsBatch := []
  rhsBatch := []
  wf := dot_S128x64_S64x10_S128x10_1_0_0_1_n_n_wf

class Facts : Prop extends Facts₀ where

variable [Facts]
-- ==== Proof.RunValue.lean ====
/-
  The idealized kernel's run with its result named.  @main is eight segments: four stretches of host operations
  (the gather of neighbour rows, their sum into the destination rows, the bias rows) and four kernel launches (three
  dense node updates over ten blocks of 10 000 rows, one classifier on the pooled 128 rows).  The buffer contents at the
  eight boundaries are a fold from the launch memory; the last of them, `W8`, is what every unscoped buffer holds when
  @main returns.  So every weakly fair execution terminates, nothing faults, the result buffer `%48` ends at
  `W8` read at that buffer, and the nineteen argument arrays end as launched.
-/
import proofs.«141353_j85031762526245_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main from any memory with zero counters: the launch over the eight segments, the last thread state read
    against the final state at every unscoped buffer — the result buffer among them —, each argument walked back through
    the fold to the launch memory. -/
theorem run_result : θ_run defs (onTc (τ := τ) (main (F := F))) ⟨m, fun _ => 0, ρ⟩ (fun r => ∀ c : Dev nD,
      r.2.mem ((c.tc : Thread nD τ).loc main_v48) = W8 m ρ c (Proc.devRef .tc main_v48)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v48 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c),
       (h c _ (mem_uc main_arg16 (by decide))).trans (W8_main_arg16 m ρ c),
       (h c _ (mem_uc main_arg17 (by decide))).trans (W8_main_arg17 m ρ c),
       (h c _ (mem_uc main_arg18 (by decide))).trans (W8_main_arg18 m ρ c)⟩)

end Cert.KernelIdeal.RunValue

end
-- ==== Proof.LibPlainDot.lean ====
/-
  A plain matrix product read at an entry. For the dimension numbers of an [M, K] by [K, N] product (no batch axis,
  the left operand contracted on its last axis and the right on its first) the entry (p, q) of the product is
  ∑ₖ l(p, k) · r(k, q) over k : Fin K — for a tpu.matmul into the zero accumulator and for the host's dot_general alike,
  at the ideal values. General in the three extents and in the operands' formats; a printed record of these dimension
  numbers is DotDims.plain M K N up to the proof it carries, so it is passed with the equation (by rfl).
-/
import Idealize.ShloMosaic.PureOps.Ideal.Laws
import Idealize.ShloMosaic.Lib.ValueIdx

namespace Idealize.ShloMosaic.ValueIdx

/-- The left operand's row is the output's row, whatever the contraction index. -/
theorem plain_lhs_row {M K N : ℕ} (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand's column is the output's column, whatever the contraction index. -/
theorem plain_rhs_col {M K N : ℕ} (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The left operand's index at output (p, q) and contraction coordinate k is (p, k). -/
theorem plain_lhsIdx {M K N : ℕ} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a; apply Fin.ext
  match a with
  | ⟨0, _⟩ => exact plain_lhs_row (ix2 p q) _
  | ⟨1, _⟩ => exact ((DotDims.plain M K N).lhsIdx_val_of_single (cl := (1 : Fin 2)) rfl (ix2 p q) _).trans hk

/-- The right operand's index at output (p, q) and contraction coordinate k is (k, q). -/
theorem plain_rhsIdx {M K N : ℕ} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a; apply Fin.ext
  match a with
  | ⟨0, _⟩ => exact ((DotDims.plain M K N).rhsIdx_val_of_single (cr := (0 : Fin 2)) rfl (ix2 p q) _).trans hk
  | ⟨1, _⟩ => exact plain_rhs_col (ix2 p q) _

/-- The product's sum over the contraction index, re-indexed by the contracted coordinate. -/
theorem sum_plain {M K N : ℕ} (l : (⟨2, ![M, K]⟩ : Shape).Idx → EReal) (r : (⟨2, ![K, N]⟩ : Shape).Idx → EReal)
    (p : Fin M) (q : Fin N) :
    ∑ k : (DotDims.plain M K N).contr.Idx, l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  exact Finset.sum_congr rfl fun k _ => by rw [plain_lhsIdx, plain_rhsIdx]

/-- A tpu.matmul of these dimension numbers into the zero accumulator, at entry (p, q). -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  exact (Ideal.matmul_constant_zero_apply _ prec lhs rhs (ix2 p q)).trans (sum_plain lhs rhs p q)

/-- The host's dot_general of these dimension numbers, at entry (p, q). -/
theorem dotGeneral_plain_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  exact (Ideal.dotGeneral_apply _ prec sched lhs rhs (ix2 p q)).trans (sum_plain lhs rhs p q)

end Idealize.ShloMosaic.ValueIdx
-- ==== Proof.LibDenseMlp.lean ====
/-
  A two-layer perceptron read at an entry: a linear map, a row of biases, the positive part, a second linear map and a
  second row of biases.  `mlpRow` is the value at one row and one output column, on the extended reals; the two
  lemmas say that a kernel's chain of operations (two matrix products into zero accumulators on narrowed operands — a
  change of float format is the identity on the extended reals —, the bias rows [1, H] and [1, C] spread over the rows,
  the maximum with zero) computes it at every entry of a block of rows.  General in the four extents.
-/
import Idealize.ShloMosaic.Lib.ValueIdx
import Idealize.ShloMosaic.Lib.ValueLayout
import Idealize.ShloMosaic.Lib.Pipeline.Value
import Idealize.ShloMosaic.PureOps.Ideal.Laws
import proofs.«141353_j85031762526245_1_alg».proof.Proof.LibPlainDot

noncomputable section

namespace Cert.Lib.DenseMlp

open Idealize.ShloMosaic Idealize.ShloMosaic.ValueIdx

/-- One row through linear → bias → positive part → linear → bias, read at one output column:
    `(∑ₖ max (∑ⱼ row j · W₁ (j, k) + b₁ k, 0) · w₂ k) + b₂`, with the zero spelled as the float word the programs carry. -/
def mlpRow {K H : ℕ} (row : Fin K → EReal) (W1 : (⟨2, ![K, H]⟩ : Shape).Idx → EReal) (b1 : Fin H → EReal)
    (w2 : Fin H → EReal) (b2 : EReal) : EReal :=
  (∑ k : Fin H, max ((∑ j : Fin K, row j * W1 (ix2 j k)) + b1 k) (Ideal.ofBits .f32 0x00000000#32) * w2 k) + b2

/-- The hidden activation of a block of rows at the entry (p, k): the first product plus the bias row, cut at zero. -/
theorem hidden_apply {A K H : ℕ} (d1 : DotDims ⟨2, ![A, K]⟩ ⟨2, ![K, H]⟩ ⟨2, ![A, H]⟩) (hd1 : d1 = DotDims.plain A K H)
    (hb : (FTy.bf16).bits < (FTy.f32).bits) (h1 : (⟨2, ![1, H]⟩ : Shape).Broadcasts ⟨2, ![A, H]⟩)
    (x : FVec Ideal ⟨2, ![A, K]⟩ .f32) (W1 : FVec Ideal ⟨2, ![K, H]⟩ .f32) (b1 : FVec Ideal ⟨2, ![1, H]⟩ .f32)
    (p : Fin A) (k : Fin H) :
    (truncf .bf16 (maximumf (addf (matmul d1 none (truncf .bf16 x hb) (truncf .bf16 W1 hb)
        (constant ⟨2, ![A, H]⟩ .f32 0x00000000#32)) (broadcastTo ⟨2, ![A, H]⟩ b1 h1))
      (broadcast ⟨2, ![A, H]⟩ (Scalar.ofBits (F := Ideal) .f32 0x00000000#32))) hb : FVec Ideal ⟨2, ![A, H]⟩ .bf16) (ix2 p k)
      = max ((∑ j : Fin K, x (ix2 p j) * W1 (ix2 j k)) + b1 (ix2 (0 : Fin 1) k)) (Ideal.ofBits .f32 0x00000000#32) := by
  rw [truncf_apply, maximumf_apply, addf_apply, broadcast_apply, broadcastTo_1b_ab_apply]
  refine congrArg (fun s => max (s + b1 (ix2 (0 : Fin 1) k)) (Ideal.ofBits .f32 0x00000000#32)) ?_
  exact matmul_plain_zero_apply d1 hd1 none (truncf .bf16 x hb) (truncf .bf16 W1 hb) p k

/-- The kernel's chain of operations at the entry (p, q) is `mlpRow` of row p and column q. -/
theorem kernelMlp_apply {A K H C : ℕ}
    (d1 : DotDims ⟨2, ![A, K]⟩ ⟨2, ![K, H]⟩ ⟨2, ![A, H]⟩) (hd1 : d1 = DotDims.plain A K H)
    (d2 : DotDims ⟨2, ![A, H]⟩ ⟨2, ![H, C]⟩ ⟨2, ![A, C]⟩) (hd2 : d2 = DotDims.plain A H C)
    (hb : (FTy.bf16).bits < (FTy.f32).bits)
    (h1 : (⟨2, ![1, H]⟩ : Shape).Broadcasts ⟨2, ![A, H]⟩) (h2 : (⟨2, ![1, C]⟩ : Shape).Broadcasts ⟨2, ![A, C]⟩)
    (x : FVec Ideal ⟨2, ![A, K]⟩ .f32) (W1 : FVec Ideal ⟨2, ![K, H]⟩ .f32) (b1 : FVec Ideal ⟨2, ![1, H]⟩ .f32)
    (W2 : FVec Ideal ⟨2, ![H, C]⟩ .f32) (b2 : FVec Ideal ⟨2, ![1, C]⟩ .f32) (p : Fin A) (q : Fin C) :
    addf (matmul d2 none
        (truncf .bf16 (maximumf (addf (matmul d1 none (truncf .bf16 x hb) (truncf .bf16 W1 hb)
            (constant ⟨2, ![A, H]⟩ .f32 0x00000000#32)) (broadcastTo ⟨2, ![A, H]⟩ b1 h1))
          (broadcast ⟨2, ![A, H]⟩ (Scalar.ofBits (F := Ideal) .f32 0x00000000#32))) hb)
        (truncf .bf16 W2 hb) (constant ⟨2, ![A, C]⟩ .f32 0x00000000#32))
      (broadcastTo ⟨2, ![A, C]⟩ b2 h2) (ix2 p q)
      = mlpRow (fun j => x (ix2 p j)) W1 (fun k => b1 (ix2 (0 : Fin 1) k)) (fun k => W2 (ix2 k q)) (b2 (ix2 (0 : Fin 1) q)) := by
  rw [addf_apply, broadcastTo_1b_ab_apply]
  unfold mlpRow
  refine congrArg (· + b2 (ix2 (0 : Fin 1) q)) ?_
  refine (matmul_plain_zero_apply d2 hd2 none _ (truncf .bf16 W2 hb) p q).trans ?_
  refine Finset.sum_congr rfl fun k _ => ?_
  rw [hidden_apply d1 hd1 hb h1 x W1 b1 p k]
  rfl

end Cert.Lib.DenseMlp

end
-- ==== Proof.KernelBody.lean ====
/-
  The kernel bodies at an entry.  The node-update body adds the block of features and the block of summed neighbour
  rows, then applies linear → bias row → positive part → linear → bias row; the narrowings to a shorter float format in
  between are the identity on the extended reals, and each matrix product into a zero accumulator is the plain sum over
  the contracted axis.  So the stored block at row r, feature q is `mlpRow` of the summed row r.  The classifier body
  is the same chain on the pooled block, with no addition in front.
-/
import proofs.«141353_j85031762526245_1_alg».proof.Proof.Gen.KernelIdeal.Skeleton
import proofs.«141353_j85031762526245_1_alg».proof.Proof.LibDenseMlp

noncomputable section

namespace Cert.KernelIdeal.Body

open Cert.KernelIdeal Cert.KernelIdeal.Gen
open Idealize.ShloMosaic Idealize.ShloMosaic.ValueIdx Cert.Lib.DenseMlp

/-- The first node update's stored block at row r, feature q. -/
theorem update0_apply (x0 x1 : Vec Ideal S10000x64 .f32) (W1 : Vec Ideal S64x64 .f32) (b1 : Vec Ideal S1x64 .f32)
    (W2 : Vec Ideal S64x64 .f32) (b2 : Vec Ideal S1x64 .f32) (r : Fin 10000) (q : Fin 64) :
    k0_pay1 (F := Ideal) x0 x1 W1 b1 W2 b2 (ix2 r q)
      = mlpRow (fun j => x0 (ix2 r j) + x1 (ix2 r j)) W1 (fun k => b1 (ix2 (0 : Fin 1) k)) (fun k => W2 (ix2 k q))
          (b2 (ix2 (0 : Fin 1) q)) := by
  unfold k0_pay1
  simp only [shapeCast_self]
  exact kernelMlp_apply _ rfl _ rfl bitsLt_bf16_f32 broadcasts_S1x64_S10000x64 broadcasts_S1x64_S10000x64 (addf x0 x1) W1 b1 W2 b2 r q

/-- The second node update's stored block at row r, feature q. -/
theorem update1_apply (x0 x1 : Vec Ideal S10000x64 .f32) (W1 : Vec Ideal S64x64 .f32) (b1 : Vec Ideal S1x64 .f32)
    (W2 : Vec Ideal S64x64 .f32) (b2 : Vec Ideal S1x64 .f32) (r : Fin 10000) (q : Fin 64) :
    k1_pay1 (F := Ideal) x0 x1 W1 b1 W2 b2 (ix2 r q)
      = mlpRow (fun j => x0 (ix2 r j) + x1 (ix2 r j)) W1 (fun k => b1 (ix2 (0 : Fin 1) k)) (fun k => W2 (ix2 k q))
          (b2 (ix2 (0 : Fin 1) q)) := by
  unfold k1_pay1
  simp only [shapeCast_self]
  exact kernelMlp_apply _ rfl _ rfl bitsLt_bf16_f32 broadcasts_S1x64_S10000x64 broadcasts_S1x64_S10000x64 (addf x0 x1) W1 b1 W2 b2 r q

/-- The third node update's stored block at row r, feature q. -/
theorem update2_apply (x0 x1 : Vec Ideal S10000x64 .f32) (W1 : Vec Ideal S64x64 .f32) (b1 : Vec Ideal S1x64 .f32)
    (W2 : Vec Ideal S64x64 .f32) (b2 : Vec Ideal S1x64 .f32) (r : Fin 10000) (q : Fin 64) :
    k2_pay1 (F := Ideal) x0 x1 W1 b1 W2 b2 (ix2 r q)
      = mlpRow (fun j => x0 (ix2 r j) + x1 (ix2 r j)) W1 (fun k => b1 (ix2 (0 : Fin 1) k)) (fun k => W2 (ix2 k q))
          (b2 (ix2 (0 : Fin 1) q)) := by
  unfold k2_pay1
  simp only [shapeCast_self]
  exact kernelMlp_apply _ rfl _ rfl bitsLt_bf16_f32 broadcasts_S1x64_S10000x64 broadcasts_S1x64_S10000x64 (addf x0 x1) W1 b1 W2 b2 r q

/-- The classifier's stored block at graph r, class q. -/
theorem classifier_apply (x0 : Vec Ideal S128x64 .f32) (W1 : Vec Ideal S64x64 .f32) (b1 : Vec Ideal S1x64 .f32)
    (W2 : Vec Ideal S64x10 .f32) (b2 : Vec Ideal S1x10 .f32) (r : Fin 128) (q : Fin 10) :
    k3_pay1 (F := Ideal) x0 W1 b1 W2 b2 (ix2 r q)
      = mlpRow (fun j => x0 (ix2 r j)) W1 (fun k => b1 (ix2 (0 : Fin 1) k)) (fun k => W2 (ix2 k q))
          (b2 (ix2 (0 : Fin 1) q)) := by
  unfold k3_pay1
  simp only [shapeCast_self]
  exact kernelMlp_apply _ rfl _ rfl bitsLt_bf16_f32 broadcasts_S1x64_S128x64 broadcasts_S1x10_S128x10 x0 W1 b1 W2 b2 r q

end Cert.KernelIdeal.Body

end
-- ==== Proof.Spec.lean ====
/-
  The two whole-array functions the kernel launches compute.  A node update sends features h : [100000, 64] and summed
  neighbour rows agg : [100000, 64] to the array whose entry (p, q) is `mlpRow` of the row p of h + agg; the classifier
  sends pooled features [128, 64] to the array whose entry (p, q) is `mlpRow` of the pooled row p.  The bias operands are
  one-row arrays [1, 64] and [1, 10], as the launches receive them.
-/
import proofs.«141353_j85031762526245_1_alg».proof.Proof.LibDenseMlp

noncomputable section

namespace Cert.Gin

open Idealize.ShloMosaic Idealize.ShloMosaic.ValueIdx Cert.Lib.DenseMlp

/-- One node update over the whole node axis. -/
def nodeUpdate (h agg : (⟨2, ![100000, 64]⟩ : Shape).Idx → EReal) (W1 : (⟨2, ![64, 64]⟩ : Shape).Idx → EReal)
    (b1 : (⟨2, ![1, 64]⟩ : Shape).Idx → EReal) (W2 : (⟨2, ![64, 64]⟩ : Shape).Idx → EReal)
    (b2 : (⟨2, ![1, 64]⟩ : Shape).Idx → EReal) : (⟨2, ![100000, 64]⟩ : Shape).Idx → EReal :=
  fun i => mlpRow (fun j => h (ix2 (i 0) j) + agg (ix2 (i 0) j)) W1 (fun k => b1 (ix2 (0 : Fin 1) k))
    (fun k => W2 (ix2 k (i 1))) (b2 (ix2 (0 : Fin 1) (i 1)))

/-- The classifier over the pooled graph features. -/
def classify (pooled : (⟨2, ![128, 64]⟩ : Shape).Idx → EReal) (W1 : (⟨2, ![64, 64]⟩ : Shape).Idx → EReal)
    (b1 : (⟨2, ![1, 64]⟩ : Shape).Idx → EReal) (W2 : (⟨2, ![64, 10]⟩ : Shape).Idx → EReal)
    (b2 : (⟨2, ![1, 10]⟩ : Shape).Idx → EReal) : (⟨2, ![128, 10]⟩ : Shape).Idx → EReal :=
  fun i => mlpRow (fun j => pooled (ix2 (i 0) j)) W1 (fun k => b1 (ix2 (0 : Fin 1) k))
    (fun k => W2 (ix2 k (i 1))) (b2 (ix2 (0 : Fin 1) (i 1)))

/-- `mlpRow` depends on its operands entry by entry. -/
theorem mlpRow_congr {K H : ℕ} {row row' : Fin K → EReal} {W1 W1' : (⟨2, ![K, H]⟩ : Shape).Idx → EReal}
    {b1 b1' w2 w2' : Fin H → EReal} {b2 b2' : EReal} (h1 : ∀ j, row j = row' j) (h2 : ∀ j k, W1 (ix2 j k) = W1' (ix2 j k))
    (h3 : ∀ k, b1 k = b1' k) (h4 : ∀ k, w2 k = w2' k) (h5 : b2 = b2') :
    mlpRow row W1 b1 w2 b2 = mlpRow row' W1' b1' w2' b2' := by
  unfold mlpRow
  rw [h5]
  refine congrArg (· + b2') (Finset.sum_congr rfl fun k _ => ?_)
  rw [h3 k, h4 k]
  refine congrArg (fun s => max (s + b1' k) (Ideal.ofBits .f32 0x00000000#32) * w2' k) (Finset.sum_congr rfl fun j _ => ?_)
  rw [h1 j, h2 j k]

end Cert.Gin

end
-- ==== Proof.Update0.lean ====
/-
  The first node update's launch, from blocks to the whole array.  The grid has ten points; point t loads rows
  10000·t … 10000·t + 9999 of the features and of the summed neighbour rows, the two weight matrices and the two bias rows
  whole, and writes back the same rows of the result.  The stored block is the body's value on the loaded blocks, so at
  row r of the block and feature q it is the node update at node 10000·t + r; the ten blocks tile the node axis, so the
  result array ends as the node update of the arrays the launch found.
-/
import proofs.«141353_j85031762526245_1_alg».proof.Proof.Gen.KernelIdeal.Frame
import proofs.«141353_j85031762526245_1_alg».proof.Proof.KernelBody
import proofs.«141353_j85031762526245_1_alg».proof.Proof.Spec
import Idealize.ShloMosaic.Lib.Pipeline.Value

set_option maxRecDepth 16384

noncomputable section

namespace Cert.KernelIdeal.Update0

open Cert.KernelIdeal Cert.KernelIdeal.Gen
open Idealize.ShloMosaic Idealize.ShloMosaic.TcCoe Idealize.SL.Sem Idealize.ShloMosaic.ValueIdx
open Idealize.ShloMosaic.Pipeline (Dat Cfg Window)
open Cert.Gin Cert.Lib.DenseMlp

variable (V : (c : Dev nD) → (b : Ref sig .tc) → Buf (Elt Ideal) ((c : Thread nD τ).loc b))

theorem origin : (![0, 0] : Fin 2 → Nat) = fun _ => 0 := funext fun a => by fin_cases a <;> rfl

/-- The index maps over the grid: the two row-blocked inputs move with the output along the node axis, the four
    parameter windows stay at the origin, and the output's block index is the point's number. -/
theorem index_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- What point t writes back is block t of the node update of the arrays as the launch finds them. -/
theorem flushed_eq (c : Dev nD) (t : Fin cfg0.N) :
    (dat0 V c).flushed 6 t = ((cfg0.win 6).blk t).view.read (Elt Ideal)
      (nodeUpdate (V c main_arg0) (V c main_v13) (V c main_arg3) (V c main_v14) (V c main_arg5) (V c main_v15)) := by
  show (cfg0.win 6).cut (grid0.coords t) ((dat0 V c).after 6 t) = _
  rw [after0_6]
  unfold out0_6
  rw [View.canon_unit_zero origin]
  simp only [View.ld_unit_zero (S := S10000x64) origin, View.ld_unit_zero (S := S64x64) origin, View.ld_unit_zero (S := S1x64) origin]
  obtain ⟨e00, e01, e10, e11, e20, e21, e30, e31, e40, e41, e50, e51, e60, e61⟩ := index_facts t
  funext y
  obtain ⟨r, q, rfl⟩ : ∃ (r : Fin 10000) (q : Fin 64), y = ix2 r q := ⟨y 0, y 1, eq_ix2 y⟩
  refine (Cert.KernelIdeal.Body.update0_apply (iblk0 V c 0 t) (iblk0 V c 1 t) (iblk0 V c 2 t) (iblk0 V c 3 t) (iblk0 V c 4 t) (iblk0 V c 5 t) r q).trans ?_
  show _ = nodeUpdate (V c main_arg0) (V c main_v13) (V c main_arg3) (V c main_v14) (V c main_arg5) (V c main_v15) (((cfg0.win 6).blk t).view.emb (ix2 r q))
  unfold nodeUpdate
  have hr : r.val < 10000 := r.isLt
  have hq : q.val < 64 := q.isLt
  refine mlpRow_congr (fun j => ?_) (fun j k => ?_) (fun k => ?_) (fun k => ?_) ?_
  · have hj : j.val < 64 := j.isLt
    refine congrArg₂ (· + ·) ?_ ?_
    · show V c main_arg0 (((cfg0.win 0).blk t).view.emb (ix2 r j)) = _
      refine congrArg (V c main_arg0) (funext fun a => Fin.ext ?_)
      match a with
      | ⟨0, _⟩ => show win0_0.index t (0 : Fin 2) * 10000 + 1 * r.val = win0_6.index t (0 : Fin 2) * 10000 + 1 * r.val; omega
      | ⟨1, _⟩ => show win0_0.index t (1 : Fin 2) * 64 + 1 * j.val = j.val; omega
    · show V c main_v13 (((cfg0.win 1).blk t).view.emb (ix2 r j)) = _
      refine congrArg (V c main_v13) (funext fun a => Fin.ext ?_)
      match a with
      | ⟨0, _⟩ => show win0_1.index t (0 : Fin 2) * 10000 + 1 * r.val = win0_6.index t (0 : Fin 2) * 10000 + 1 * r.val; omega
      | ⟨1, _⟩ => show win0_1.index t (1 : Fin 2) * 64 + 1 * j.val = j.val; omega
  · have hj : j.val < 64 := j.isLt
    have hk : k.val < 64 := k.isLt
    show V c main_arg3 (((cfg0.win 2).blk t).view.emb (ix2 j k)) = _
    refine congrArg (V c main_arg3) (funext fun a => Fin.ext ?_)
    match a with
    | ⟨0, _⟩ => show win0_2.index t (0 : Fin 2) * 64 + 1 * j.val = j.val; omega
    | ⟨1, _⟩ => show win0_2.index t (1 : Fin 2) * 64 + 1 * k.val = k.val; omega
  · have hk : k.val < 64 := k.isLt
    show V c main_v14 (((cfg0.win 3).blk t).view.emb (ix2 (0 : Fin 1) k)) = _
    refine congrArg (V c main_v14) (funext fun a => Fin.ext ?_)
    match a with
    | ⟨0, _⟩ => show win0_3.index t (0 : Fin 2) * 1 + 1 * 0 = 0; omega
    | ⟨1, _⟩ => show win0_3.index t (1 : Fin 2) * 64 + 1 * k.val = k.val; omega
  · have hk : k.val < 64 := k.isLt
    show V c main_arg5 (((cfg0.win 4).blk t).view.emb (ix2 k q)) = _
    refine congrArg (V c main_arg5) (funext fun a => Fin.ext ?_)
    match a with
    | ⟨0, _⟩ => show win0_4.index t (0 : Fin 2) * 64 + 1 * k.val = k.val; omega
    | ⟨1, _⟩ => show win0_4.index t (1 : Fin 2) * 64 + 1 * q.val = win0_6.index t (1 : Fin 2) * 64 + 1 * q.val; omega
  · show V c main_v15 (((cfg0.win 5).blk t).view.emb (ix2 (0 : Fin 1) q)) = _
    refine congrArg (V c main_v15) (funext fun a => Fin.ext ?_)
    match a with
    | ⟨0, _⟩ => show win0_5.index t (0 : Fin 2) * 1 + 1 * 0 = 0; omega
    | ⟨1, _⟩ => show win0_5.index t (1 : Fin 2) * 64 + 1 * q.val = win0_6.index t (1 : Fin 2) * 64 + 1 * q.val; omega

/-- An index of the result array is in point t's block iff each coordinate is in the block's range on its axis. -/
theorem mem_block (t : Fin cfg0.N) (i : S100000x64.Idx) :
    i ∈ ((cfg0.win 6).blk t).view.set ↔ ∀ a : Fin 2, win0_6.index t a * S10000x64.size a ≤ (i a).val ∧ (i a).val < win0_6.index t a * S10000x64.size a + S10000x64.size a := by
  show i ∈ ((View.whole main_v16).slice (win0_6.rect t)).set ↔ _
  rw [View.set_slice_whole, Rect.mem_set_unit]
  exact Iff.rfl

/-- Every node's row is in the block of the point numbered by the node's number divided by 10000. -/
theorem covered (i : S100000x64.Idx) :
    ∃ t : Fin cfg0.N, (cfg0.win 6).flush t = true ∧ i ∈ ((cfg0.win 6).blk t).view.set := by
  have hN : cfg0.N = 10 := N_0
  have hi0 : (i 0).val < 100000 := (i 0).isLt
  have hi1 : (i 1).val < 64 := (i 1).isLt
  refine ⟨⟨(i 0).val / 10000, by rw [hN]; omega⟩, flush0_6 _, ?_⟩
  rw [mem_block]
  obtain ⟨-, -, -, -, -, -, -, -, -, -, -, -, e60, e61⟩ := index_facts ⟨(i 0).val / 10000, by rw [hN]; omega⟩
  intro a
  match a with
  | ⟨0, _⟩ => show win0_6.index _ (0 : Fin 2) * 10000 ≤ (i 0).val ∧ (i 0).val < win0_6.index _ (0 : Fin 2) * 10000 + 10000; rw [e60]; show (i 0).val / 10000 * 10000 ≤ (i 0).val ∧ (i 0).val < (i 0).val / 10000 * 10000 + 10000; omega
  | ⟨1, _⟩ => show win0_6.index _ (1 : Fin 2) * 64 ≤ (i 1).val ∧ (i 1).val < win0_6.index _ (1 : Fin 2) * 64 + 64; rw [e61]; omega

/-- The result array after the launch: the node update of the arrays the launch found. -/
theorem final (c : Dev nD) :
    (dat0 V c).arrAt 6 cfg0.N = nodeUpdate (V c main_arg0) (V c main_v13) (V c main_arg3) (V c main_v14) (V c main_arg5) (V c main_v15) :=
  (dat0 V c).arrAt_eq_of_cover 6 _ (fun t _ => flushed_eq V c t) covered

end Cert.KernelIdeal.Update0

end
-- ==== Proof.Update1.lean ====
/-
  The second node update's launch, from blocks to the whole array.  The grid has ten points; point t loads rows
  10000·t … 10000·t + 9999 of the features and of the summed neighbour rows, the two weight matrices and the two bias rows
  whole, and writes back the same rows of the result.  The stored block is the body's value on the loaded blocks, so at
  row r of the block and feature q it is the node update at node 10000·t + r; the ten blocks tile the node axis, so the
  result array ends as the node update of the arrays the launch found.
-/
import proofs.«141353_j85031762526245_1_alg».proof.Proof.Gen.KernelIdeal.Frame
import proofs.«141353_j85031762526245_1_alg».proof.Proof.KernelBody
import proofs.«141353_j85031762526245_1_alg».proof.Proof.Spec
import Idealize.ShloMosaic.Lib.Pipeline.Value

set_option maxRecDepth 16384

noncomputable section

namespace Cert.KernelIdeal.Update1

open Cert.KernelIdeal Cert.KernelIdeal.Gen
open Idealize.ShloMosaic Idealize.ShloMosaic.TcCoe Idealize.SL.Sem Idealize.ShloMosaic.ValueIdx
open Idealize.ShloMosaic.Pipeline (Dat Cfg Window)
open Cert.Gin Cert.Lib.DenseMlp

variable (V : (c : Dev nD) → (b : Ref sig .tc) → Buf (Elt Ideal) ((c : Thread nD τ).loc b))

theorem origin : (![0, 0] : Fin 2 → Nat) = fun _ => 0 := funext fun a => by fin_cases a <;> rfl

/-- The index maps over the grid: the two row-blocked inputs move with the output along the node axis, the four
    parameter windows stay at the origin, and the output's block index is the point's number. -/
theorem index_facts : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- What point t writes back is block t of the node update of the arrays as the launch finds them. -/
theorem flushed_eq (c : Dev nD) (t : Fin cfg1.N) :
    (dat1 V c).flushed 6 t = ((cfg1.win 6).blk t).view.read (Elt Ideal)
      (nodeUpdate (V c main_v16) (V c main_v26) (V c main_arg7) (V c main_v27) (V c main_arg9) (V c main_v28)) := by
  show (cfg1.win 6).cut (grid1.coords t) ((dat1 V c).after 6 t) = _
  rw [after1_6]
  unfold out1_6
  rw [View.canon_unit_zero origin]
  simp only [View.ld_unit_zero (S := S10000x64) origin, View.ld_unit_zero (S := S64x64) origin, View.ld_unit_zero (S := S1x64) origin]
  obtain ⟨e00, e01, e10, e11, e20, e21, e30, e31, e40, e41, e50, e51, e60, e61⟩ := index_facts t
  funext y
  obtain ⟨r, q, rfl⟩ : ∃ (r : Fin 10000) (q : Fin 64), y = ix2 r q := ⟨y 0, y 1, eq_ix2 y⟩
  refine (Cert.KernelIdeal.Body.update1_apply (iblk1 V c 0 t) (iblk1 V c 1 t) (iblk1 V c 2 t) (iblk1 V c 3 t) (iblk1 V c 4 t) (iblk1 V c 5 t) r q).trans ?_
  show _ = nodeUpdate (V c main_v16) (V c main_v26) (V c main_arg7) (V c main_v27) (V c main_arg9) (V c main_v28) (((cfg1.win 6).blk t).view.emb (ix2 r q))
  unfold nodeUpdate
  have hr : r.val < 10000 := r.isLt
  have hq : q.val < 64 := q.isLt
  refine mlpRow_congr (fun j => ?_) (fun j k => ?_) (fun k => ?_) (fun k => ?_) ?_
  · have hj : j.val < 64 := j.isLt
    refine congrArg₂ (· + ·) ?_ ?_
    · show V c main_v16 (((cfg1.win 0).blk t).view.emb (ix2 r j)) = _
      refine congrArg (V c main_v16) (funext fun a => Fin.ext ?_)
      match a with
      | ⟨0, _⟩ => show win1_0.index t (0 : Fin 2) * 10000 + 1 * r.val = win1_6.index t (0 : Fin 2) * 10000 + 1 * r.val; omega
      | ⟨1, _⟩ => show win1_0.index t (1 : Fin 2) * 64 + 1 * j.val = j.val; omega
    · show V c main_v26 (((cfg1.win 1).blk t).view.emb (ix2 r j)) = _
      refine congrArg (V c main_v26) (funext fun a => Fin.ext ?_)
      match a with
      | ⟨0, _⟩ => show win1_1.index t (0 : Fin 2) * 10000 + 1 * r.val = win1_6.index t (0 : Fin 2) * 10000 + 1 * r.val; omega
      | ⟨1, _⟩ => show win1_1.index t (1 : Fin 2) * 64 + 1 * j.val = j.val; omega
  · have hj : j.val < 64 := j.isLt
    have hk : k.val < 64 := k.isLt
    show V c main_arg7 (((cfg1.win 2).blk t).view.emb (ix2 j k)) = _
    refine congrArg (V c main_arg7) (funext fun a => Fin.ext ?_)
    match a with
    | ⟨0, _⟩ => show win1_2.index t (0 : Fin 2) * 64 + 1 * j.val = j.val; omega
    | ⟨1, _⟩ => show win1_2.index t (1 : Fin 2) * 64 + 1 * k.val = k.val; omega
  · have hk : k.val < 64 := k.isLt
    show V c main_v27 (((cfg1.win 3).blk t).view.emb (ix2 (0 : Fin 1) k)) = _
    refine congrArg (V c main_v27) (funext fun a => Fin.ext ?_)
    match a with
    | ⟨0, _⟩ => show win1_3.index t (0 : Fin 2) * 1 + 1 * 0 = 0; omega
    | ⟨1, _⟩ => show win1_3.index t (1 : Fin 2) * 64 + 1 * k.val = k.val; omega
  · have hk : k.val < 64 := k.isLt
    show V c main_arg9 (((cfg1.win 4).blk t).view.emb (ix2 k q)) = _
    refine congrArg (V c main_arg9) (funext fun a => Fin.ext ?_)
    match a with
    | ⟨0, _⟩ => show win1_4.index t (0 : Fin 2) * 64 + 1 * k.val = k.val; omega
    | ⟨1, _⟩ => show win1_4.index t (1 : Fin 2) * 64 + 1 * q.val = win1_6.index t (1 : Fin 2) * 64 + 1 * q.val; omega
  · show V c main_v28 (((cfg1.win 5).blk t).view.emb (ix2 (0 : Fin 1) q)) = _
    refine congrArg (V c main_v28) (funext fun a => Fin.ext ?_)
    match a with
    | ⟨0, _⟩ => show win1_5.index t (0 : Fin 2) * 1 + 1 * 0 = 0; omega
    | ⟨1, _⟩ => show win1_5.index t (1 : Fin 2) * 64 + 1 * q.val = win1_6.index t (1 : Fin 2) * 64 + 1 * q.val; omega

/-- An index of the result array is in point t's block iff each coordinate is in the block's range on its axis. -/
theorem mem_block (t : Fin cfg1.N) (i : S100000x64.Idx) :
    i ∈ ((cfg1.win 6).blk t).view.set ↔ ∀ a : Fin 2, win1_6.index t a * S10000x64.size a ≤ (i a).val ∧ (i a).val < win1_6.index t a * S10000x64.size a + S10000x64.size a := by
  show i ∈ ((View.whole main_v29).slice (win1_6.rect t)).set ↔ _
  rw [View.set_slice_whole, Rect.mem_set_unit]
  exact Iff.rfl

/-- Every node's row is in the block of the point numbered by the node's number divided by 10000. -/
theorem covered (i : S100000x64.Idx) :
    ∃ t : Fin cfg1.N, (cfg1.win 6).flush t = true ∧ i ∈ ((cfg1.win 6).blk t).view.set := by
  have hN : cfg1.N = 10 := N_1
  have hi0 : (i 0).val < 100000 := (i 0).isLt
  have hi1 : (i 1).val < 64 := (i 1).isLt
  refine ⟨⟨(i 0).val / 10000, by rw [hN]; omega⟩, flush1_6 _, ?_⟩
  rw [mem_block]
  obtain ⟨-, -, -, -, -, -, -, -, -, -, -, -, e60, e61⟩ := index_facts ⟨(i 0).val / 10000, by rw [hN]; omega⟩
  intro a
  match a with
  | ⟨0, _⟩ => show win1_6.index _ (0 : Fin 2) * 10000 ≤ (i 0).val ∧ (i 0).val < win1_6.index _ (0 : Fin 2) * 10000 + 10000; rw [e60]; show (i 0).val / 10000 * 10000 ≤ (i 0).val ∧ (i 0).val < (i 0).val / 10000 * 10000 + 10000; omega
  | ⟨1, _⟩ => show win1_6.index _ (1 : Fin 2) * 64 ≤ (i 1).val ∧ (i 1).val < win1_6.index _ (1 : Fin 2) * 64 + 64; rw [e61]; omega

/-- The result array after the launch: the node update of the arrays the launch found. -/
theorem final (c : Dev nD) :
    (dat1 V c).arrAt 6 cfg1.N = nodeUpdate (V c main_v16) (V c main_v26) (V c main_arg7) (V c main_v27) (V c main_arg9) (V c main_v28) :=
  (dat1 V c).arrAt_eq_of_cover 6 _ (fun t _ => flushed_eq V c t) covered

end Cert.KernelIdeal.Update1

end
-- ==== Proof.Update2.lean ====
/-
  The third node update's launch, from blocks to the whole array.  The grid has ten points; point t loads rows
  10000·t … 10000·t + 9999 of the features and of the summed neighbour rows, the two weight matrices and the two bias rows
  whole, and writes back the same rows of the result.  The stored block is the body's value on the loaded blocks, so at
  row r of the block and feature q it is the node update at node 10000·t + r; the ten blocks tile the node axis, so the
  result array ends as the node update of the arrays the launch found.
-/
import proofs.«141353_j85031762526245_1_alg».proof.Proof.Gen.KernelIdeal.Frame
import proofs.«141353_j85031762526245_1_alg».proof.Proof.KernelBody
import proofs.«141353_j85031762526245_1_alg».proof.Proof.Spec
import Idealize.ShloMosaic.Lib.Pipeline.Value

set_option maxRecDepth 16384

noncomputable section

namespace Cert.KernelIdeal.Update2

open Cert.KernelIdeal Cert.KernelIdeal.Gen
open Idealize.ShloMosaic Idealize.ShloMosaic.TcCoe Idealize.SL.Sem Idealize.ShloMosaic.ValueIdx
open Idealize.ShloMosaic.Pipeline (Dat Cfg Window)
open Cert.Gin Cert.Lib.DenseMlp

variable (V : (c : Dev nD) → (b : Ref sig .tc) → Buf (Elt Ideal) ((c : Thread nD τ).loc b))

theorem origin : (![0, 0] : Fin 2 → Nat) = fun _ => 0 := funext fun a => by fin_cases a <;> rfl

/-- The index maps over the grid: the two row-blocked inputs move with the output along the node axis, the four
    parameter windows stay at the origin, and the output's block index is the point's number. -/
theorem index_facts : ∀ t : Fin cfg2.N,
    win2_0.index t (0 : Fin 2) = win2_6.index t (0 : Fin 2) ∧ win2_0.index t (1 : Fin 2) = 0
    ∧ win2_1.index t (0 : Fin 2) = win2_6.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- What point t writes back is block t of the node update of the arrays as the launch finds them. -/
theorem flushed_eq (c : Dev nD) (t : Fin cfg2.N) :
    (dat2 V c).flushed 6 t = ((cfg2.win 6).blk t).view.read (Elt Ideal)
      (nodeUpdate (V c main_v29) (V c main_v39) (V c main_arg11) (V c main_v40) (V c main_arg13) (V c main_v41)) := by
  show (cfg2.win 6).cut (grid2.coords t) ((dat2 V c).after 6 t) = _
  rw [after2_6]
  unfold out2_6
  rw [View.canon_unit_zero origin]
  simp only [View.ld_unit_zero (S := S10000x64) origin, View.ld_unit_zero (S := S64x64) origin, View.ld_unit_zero (S := S1x64) origin]
  obtain ⟨e00, e01, e10, e11, e20, e21, e30, e31, e40, e41, e50, e51, e60, e61⟩ := index_facts t
  funext y
  obtain ⟨r, q, rfl⟩ : ∃ (r : Fin 10000) (q : Fin 64), y = ix2 r q := ⟨y 0, y 1, eq_ix2 y⟩
  refine (Cert.KernelIdeal.Body.update2_apply (iblk2 V c 0 t) (iblk2 V c 1 t) (iblk2 V c 2 t) (iblk2 V c 3 t) (iblk2 V c 4 t) (iblk2 V c 5 t) r q).trans ?_
  show _ = nodeUpdate (V c main_v29) (V c main_v39) (V c main_arg11) (V c main_v40) (V c main_arg13) (V c main_v41) (((cfg2.win 6).blk t).view.emb (ix2 r q))
  unfold nodeUpdate
  have hr : r.val < 10000 := r.isLt
  have hq : q.val < 64 := q.isLt
  refine mlpRow_congr (fun j => ?_) (fun j k => ?_) (fun k => ?_) (fun k => ?_) ?_
  · have hj : j.val < 64 := j.isLt
    refine congrArg₂ (· + ·) ?_ ?_
    · show V c main_v29 (((cfg2.win 0).blk t).view.emb (ix2 r j)) = _
      refine congrArg (V c main_v29) (funext fun a => Fin.ext ?_)
      match a with
      | ⟨0, _⟩ => show win2_0.index t (0 : Fin 2) * 10000 + 1 * r.val = win2_6.index t (0 : Fin 2) * 10000 + 1 * r.val; omega
      | ⟨1, _⟩ => show win2_0.index t (1 : Fin 2) * 64 + 1 * j.val = j.val; omega
    · show V c main_v39 (((cfg2.win 1).blk t).view.emb (ix2 r j)) = _
      refine congrArg (V c main_v39) (funext fun a => Fin.ext ?_)
      match a with
      | ⟨0, _⟩ => show win2_1.index t (0 : Fin 2) * 10000 + 1 * r.val = win2_6.index t (0 : Fin 2) * 10000 + 1 * r.val; omega
      | ⟨1, _⟩ => show win2_1.index t (1 : Fin 2) * 64 + 1 * j.val = j.val; omega
  · have hj : j.val < 64 := j.isLt
    have hk : k.val < 64 := k.isLt
    show V c main_arg11 (((cfg2.win 2).blk t).view.emb (ix2 j k)) = _
    refine congrArg (V c main_arg11) (funext fun a => Fin.ext ?_)
    match a with
    | ⟨0, _⟩ => show win2_2.index t (0 : Fin 2) * 64 + 1 * j.val = j.val; omega
    | ⟨1, _⟩ => show win2_2.index t (1 : Fin 2) * 64 + 1 * k.val = k.val; omega
  · have hk : k.val < 64 := k.isLt
    show V c main_v40 (((cfg2.win 3).blk t).view.emb (ix2 (0 : Fin 1) k)) = _
    refine congrArg (V c main_v40) (funext fun a => Fin.ext ?_)
    match a with
    | ⟨0, _⟩ => show win2_3.index t (0 : Fin 2) * 1 + 1 * 0 = 0; omega
    | ⟨1, _⟩ => show win2_3.index t (1 : Fin 2) * 64 + 1 * k.val = k.val; omega
  · have hk : k.val < 64 := k.isLt
    show V c main_arg13 (((cfg2.win 4).blk t).view.emb (ix2 k q)) = _
    refine congrArg (V c main_arg13) (funext fun a => Fin.ext ?_)
    match a with
    | ⟨0, _⟩ => show win2_4.index t (0 : Fin 2) * 64 + 1 * k.val = k.val; omega
    | ⟨1, _⟩ => show win2_4.index t (1 : Fin 2) * 64 + 1 * q.val = win2_6.index t (1 : Fin 2) * 64 + 1 * q.val; omega
  · show V c main_v41 (((cfg2.win 5).blk t).view.emb (ix2 (0 : Fin 1) q)) = _
    refine congrArg (V c main_v41) (funext fun a => Fin.ext ?_)
    match a with
    | ⟨0, _⟩ => show win2_5.index t (0 : Fin 2) * 1 + 1 * 0 = 0; omega
    | ⟨1, _⟩ => show win2_5.index t (1 : Fin 2) * 64 + 1 * q.val = win2_6.index t (1 : Fin 2) * 64 + 1 * q.val; omega

/-- An index of the result array is in point t's block iff each coordinate is in the block's range on its axis. -/
theorem mem_block (t : Fin cfg2.N) (i : S100000x64.Idx) :
    i ∈ ((cfg2.win 6).blk t).view.set ↔ ∀ a : Fin 2, win2_6.index t a * S10000x64.size a ≤ (i a).val ∧ (i a).val < win2_6.index t a * S10000x64.size a + S10000x64.size a := by
  show i ∈ ((View.whole main_v42).slice (win2_6.rect t)).set ↔ _
  rw [View.set_slice_whole, Rect.mem_set_unit]
  exact Iff.rfl

/-- Every node's row is in the block of the point numbered by the node's number divided by 10000. -/
theorem covered (i : S100000x64.Idx) :
    ∃ t : Fin cfg2.N, (cfg2.win 6).flush t = true ∧ i ∈ ((cfg2.win 6).blk t).view.set := by
  have hN : cfg2.N = 10 := N_2
  have hi0 : (i 0).val < 100000 := (i 0).isLt
  have hi1 : (i 1).val < 64 := (i 1).isLt
  refine ⟨⟨(i 0).val / 10000, by rw [hN]; omega⟩, flush2_6 _, ?_⟩
  rw [mem_block]
  obtain ⟨-, -, -, -, -, -, -, -, -, -, -, -, e60, e61⟩ := index_facts ⟨(i 0).val / 10000, by rw [hN]; omega⟩
  intro a
  match a with
  | ⟨0, _⟩ => show win2_6.index _ (0 : Fin 2) * 10000 ≤ (i 0).val ∧ (i 0).val < win2_6.index _ (0 : Fin 2) * 10000 + 10000; rw [e60]; show (i 0).val / 10000 * 10000 ≤ (i 0).val ∧ (i 0).val < (i 0).val / 10000 * 10000 + 10000; omega
  | ⟨1, _⟩ => show win2_6.index _ (1 : Fin 2) * 64 ≤ (i 1).val ∧ (i 1).val < win2_6.index _ (1 : Fin 2) * 64 + 64; rw [e61]; omega

/-- The result array after the launch: the node update of the arrays the launch found. -/
theorem final (c : Dev nD) :
    (dat2 V c).arrAt 6 cfg2.N = nodeUpdate (V c main_v29) (V c main_v39) (V c main_arg11) (V c main_v40) (V c main_arg13) (V c main_v41) :=
  (dat2 V c).arrAt_eq_of_cover 6 _ (fun t _ => flushed_eq V c t) covered

end Cert.KernelIdeal.Update2

end
-- ==== Proof.Classifier.lean ====
/-
  The classifier's launch, from its one block to the whole array.  The grid has one point; every window's block is its
  whole array — the pooled features [128, 64], the two weight matrices and the two bias rows — and the stored block is the
  body's value on them, so the result array [128, 10] ends as the classifier of the arrays the launch found.
-/
import proofs.«141353_j85031762526245_1_alg».proof.Proof.Gen.KernelIdeal.Frame
import proofs.«141353_j85031762526245_1_alg».proof.Proof.KernelBody
import proofs.«141353_j85031762526245_1_alg».proof.Proof.Spec
import Idealize.ShloMosaic.Lib.Pipeline.Value

set_option maxRecDepth 16384

noncomputable section

namespace Cert.KernelIdeal.Classifier

open Cert.KernelIdeal Cert.KernelIdeal.Gen
open Idealize.ShloMosaic Idealize.ShloMosaic.TcCoe Idealize.SL.Sem Idealize.ShloMosaic.ValueIdx
open Idealize.ShloMosaic.Pipeline (Dat Cfg Window)
open Cert.Gin Cert.Lib.DenseMlp

variable (V : (c : Dev nD) → (b : Ref sig .tc) → Buf (Elt Ideal) ((c : Thread nD τ).loc b))

theorem origin : (![0, 0] : Fin 2 → Nat) = fun _ => 0 := funext fun a => by fin_cases a <;> rfl

/-- The index maps over the one-point grid: every window sits at the origin. -/
theorem index_facts : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0 :=
  (by decide +kernel : ∀ t : Fin grid3.N, _)

/-- What the one point writes back is the classifier of the arrays as the launch finds them. -/
theorem flushed_eq (c : Dev nD) (t : Fin cfg3.N) :
    (dat3 V c).flushed 5 t = ((cfg3.win 5).blk t).view.read (Elt Ideal)
      (classify (V c main_v45) (V c main_arg15) (V c main_v46) (V c main_arg17) (V c main_v47)) := by
  show (cfg3.win 5).cut (grid3.coords t) ((dat3 V c).after 5 t) = _
  rw [after3_5]
  unfold out3_5
  rw [View.canon_unit_zero origin]
  simp only [View.ld_unit_zero (S := S128x64) origin, View.ld_unit_zero (S := S64x64) origin, View.ld_unit_zero (S := S1x64) origin,
    View.ld_unit_zero (S := S64x10) origin, View.ld_unit_zero (S := S1x10) origin]
  obtain ⟨e00, e01, e10, e11, e20, e21, e30, e31, e40, e41, e50, e51⟩ := index_facts t
  funext y
  obtain ⟨r, q, rfl⟩ : ∃ (r : Fin 128) (q : Fin 10), y = ix2 r q := ⟨y 0, y 1, eq_ix2 y⟩
  refine (Cert.KernelIdeal.Body.classifier_apply (iblk3 V c 0 t) (iblk3 V c 1 t) (iblk3 V c 2 t) (iblk3 V c 3 t) (iblk3 V c 4 t) r q).trans ?_
  show _ = mlpRow (fun j => V c main_v45 (ix2 ((((cfg3.win 5).blk t).view.emb (ix2 r q)) 0) j))
      (V c main_arg15) (fun k => V c main_v46 (ix2 (0 : Fin 1) k))
      (fun k => V c main_arg17 (ix2 k ((((cfg3.win 5).blk t).view.emb (ix2 r q)) 1))) (V c main_v47 (ix2 (0 : Fin 1) ((((cfg3.win 5).blk t).view.emb (ix2 r q)) 1)))
  have hr : r.val < 128 := r.isLt
  have hq : q.val < 10 := q.isLt
  refine mlpRow_congr (fun j => ?_) (fun j k => ?_) (fun k => ?_) (fun k => ?_) ?_
  · have hj : j.val < 64 := j.isLt
    show V c main_v45 (((cfg3.win 0).blk t).view.emb (ix2 r j)) = _
    refine congrArg (V c main_v45) (funext fun a => Fin.ext ?_)
    match a with
    | ⟨0, _⟩ => show win3_0.index t (0 : Fin 2) * 128 + 1 * r.val = win3_5.index t (0 : Fin 2) * 128 + 1 * r.val; omega
    | ⟨1, _⟩ => show win3_0.index t (1 : Fin 2) * 64 + 1 * j.val = j.val; omega
  · have hj : j.val < 64 := j.isLt
    have hk : k.val < 64 := k.isLt
    show V c main_arg15 (((cfg3.win 1).blk t).view.emb (ix2 j k)) = _
    refine congrArg (V c main_arg15) (funext fun a => Fin.ext ?_)
    match a with
    | ⟨0, _⟩ => show win3_1.index t (0 : Fin 2) * 64 + 1 * j.val = j.val; omega
    | ⟨1, _⟩ => show win3_1.index t (1 : Fin 2) * 64 + 1 * k.val = k.val; omega
  · have hk : k.val < 64 := k.isLt
    show V c main_v46 (((cfg3.win 2).blk t).view.emb (ix2 (0 : Fin 1) k)) = _
    refine congrArg (V c main_v46) (funext fun a => Fin.ext ?_)
    match a with
    | ⟨0, _⟩ => show win3_2.index t (0 : Fin 2) * 1 + 1 * 0 = 0; omega
    | ⟨1, _⟩ => show win3_2.index t (1 : Fin 2) * 64 + 1 * k.val = k.val; omega
  · have hk : k.val < 64 := k.isLt
    show V c main_arg17 (((cfg3.win 3).blk t).view.emb (ix2 k q)) = _
    refine congrArg (V c main_arg17) (funext fun a => Fin.ext ?_)
    match a with
    | ⟨0, _⟩ => show win3_3.index t (0 : Fin 2) * 64 + 1 * k.val = k.val; omega
    | ⟨1, _⟩ => show win3_3.index t (1 : Fin 2) * 10 + 1 * q.val = win3_5.index t (1 : Fin 2) * 10 + 1 * q.val; omega
  · show V c main_v47 (((cfg3.win 4).blk t).view.emb (ix2 (0 : Fin 1) q)) = _
    refine congrArg (V c main_v47) (funext fun a => Fin.ext ?_)
    match a with
    | ⟨0, _⟩ => show win3_4.index t (0 : Fin 2) * 1 + 1 * 0 = 0; omega
    | ⟨1, _⟩ => show win3_4.index t (1 : Fin 2) * 10 + 1 * q.val = win3_5.index t (1 : Fin 2) * 10 + 1 * q.val; omega

/-- An index of the result array is in the one block iff each coordinate is in the block's range on its axis. -/
theorem mem_block (t : Fin cfg3.N) (i : S128x10.Idx) :
    i ∈ ((cfg3.win 5).blk t).view.set ↔ ∀ a : Fin 2, win3_5.index t a * S128x10.size a ≤ (i a).val ∧ (i a).val < win3_5.index t a * S128x10.size a + S128x10.size a := by
  show i ∈ ((View.whole main_v48).slice (win3_5.rect t)).set ↔ _
  rw [View.set_slice_whole, Rect.mem_set_unit]
  exact Iff.rfl

/-- The one block is the whole result array. -/
theorem covered (i : S128x10.Idx) :
    ∃ t : Fin cfg3.N, (cfg3.win 5).flush t = true ∧ i ∈ ((cfg3.win 5).blk t).view.set := by
  have hN : cfg3.N = 1 := N_3
  have hi0 : (i 0).val < 128 := (i 0).isLt
  have hi1 : (i 1).val < 10 := (i 1).isLt
  refine ⟨⟨0, by rw [hN]; omega⟩, flush3_5 _, ?_⟩
  rw [mem_block]
  obtain ⟨-, -, -, -, -, -, -, -, -, -, e50, e51⟩ := index_facts ⟨0, by rw [hN]; omega⟩
  intro a
  match a with
  | ⟨0, _⟩ => show win3_5.index _ (0 : Fin 2) * 128 ≤ (i 0).val ∧ (i 0).val < win3_5.index _ (0 : Fin 2) * 128 + 128; rw [e50]; omega
  | ⟨1, _⟩ => show win3_5.index _ (1 : Fin 2) * 10 ≤ (i 1).val ∧ (i 1).val < win3_5.index _ (1 : Fin 2) * 10 + 10; rw [e51]; omega

/-- The result array after the launch: the classifier of the arrays the launch found. -/
theorem final (c : Dev nD) :
    (dat3 V c).arrAt 5 cfg3.N = classify (V c main_v45) (V c main_arg15) (V c main_v46) (V c main_arg17) (V c main_v47) :=
  (dat3 V c).arrAt_eq_of_cover 5 _ (fun t _ => flushed_eq V c t) covered

end Cert.KernelIdeal.Classifier

end
-- ==== Proof.RefLayers.lean ====
/-
  The reference, layer by layer.  Its first node update `%24`, as a function of the node features, the edge list and
  the four parameters, IS the update every later layer applies: the second and third updates are the same function of the
  previous layer's result, the edge list and their own parameters (the printed operations are the same, one for one).
  At a node p and a feature q an update is `mlpRow` of the row p of (features + the sum of the neighbours' rows), and the
  classifier's result at a graph p and a class q is `mlpRow` of the row p of the pooled features.
-/
import proofs.«141353_j85031762526245_1_alg».proof.Proof.Gen.ReferenceIdeal.Read
import proofs.«141353_j85031762526245_1_alg».proof.Proof.LibDenseMlp

noncomputable section

namespace Cert.ReferenceIdeal.Layers

open Cert.ReferenceIdeal Cert.ReferenceIdeal.Gen Cert.ReferenceIdeal.Read
open Idealize.ShloMosaic Idealize.ShloMosaic.ValueIdx Cert.Lib.DenseMlp

/-- The second node update is the first update's function of the first update's result. -/
theorem second_layer (x0 : (⟨S100000x64, .f32⟩ : BufTy).Contents (Elt Ideal)) (x1 : (⟨S2x1600000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) :
    val_main_v45 (F := Ideal) x0 x1 x3 x4 x5 x6 x7 x8 x9 x10
      = val_main_v24 (F := Ideal) (val_main_v24 (F := Ideal) x0 x1 x3 x4 x5 x6) x1 x7 x8 x9 x10 := rfl

/-- The third node update is the first update's function of the second update's result. -/
theorem third_layer (x0 : (⟨S100000x64, .f32⟩ : BufTy).Contents (Elt Ideal)) (x1 : (⟨S2x1600000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) (x11 : (⟨S64x64, .f32⟩ : BufTy).Contents (Elt Ideal)) (x12 : (⟨S64, .f32⟩ : BufTy).Contents (Elt Ideal)) (x13 : (⟨S64x64, .f32⟩ : BufTy).Contents (Elt Ideal)) (x14 : (⟨S64, .f32⟩ : BufTy).Contents (Elt Ideal)) :
    val_main_v66 (F := Ideal) x0 x1 x3 x4 x5 x6 x7 x8 x9 x10 x11 x12 x13 x14
      = val_main_v24 (F := Ideal) (val_main_v45 (F := Ideal) x0 x1 x3 x4 x5 x6 x7 x8 x9 x10) x1 x11 x12 x13 x14 := rfl

/-- A node update at node p, feature q. -/
theorem layer_apply (x0 : (⟨S100000x64, .f32⟩ : BufTy).Contents (Elt Ideal)) (x1 : (⟨S2x1600000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (p : Fin 100000) (q : Fin 64) :
    val_main_v24 (F := Ideal) x0 x1 x3 x4 x5 x6 (ix2 p q)
      = mlpRow (fun j => x0 (ix2 p j) + val_main_v13 (F := Ideal) x0 x1 (ix2 p j)) x3 (fun k => x4 (ix1 k))
          (fun k => x5 (ix2 k q)) (x6 (ix1 q)) := by
  have el2 : ∀ k : Fin 64, lidx_main_v21 (ix2 p q) k = ix2 p k := fun k =>
    funext fun a => Fin.ext (by match a with | ⟨0, _⟩ => rfl | ⟨1, _⟩ => rfl)
  have er2 : ∀ k : Fin 64, ridx_main_v21 (ix2 p q) k = ix2 k q := fun k =>
    funext fun a => Fin.ext (by match a with | ⟨0, _⟩ => rfl | ⟨1, _⟩ => rfl)
  have el1 : ∀ (k j : Fin 64), lidx_main_v15 (ix2 p k) j = ix2 p j := fun k j =>
    funext fun a => Fin.ext (by match a with | ⟨0, _⟩ => rfl | ⟨1, _⟩ => rfl)
  have er1 : ∀ (k j : Fin 64), ridx_main_v15 (ix2 p k) j = ix2 j k := fun k j =>
    funext fun a => Fin.ext (by match a with | ⟨0, _⟩ => rfl | ⟨1, _⟩ => rfl)
  have eb1 : ∀ k : Fin 64, idx_main_v16 (idx_main_v17 (ix2 p k)) = ix1 k := fun k =>
    funext fun a => Fin.ext (by match a with | ⟨0, _⟩ => rfl)
  have eb2 : idx_main_v22 (idx_main_v23 (ix2 p q)) = ix1 q :=
    funext fun a => Fin.ext (by match a with | ⟨0, _⟩ => rfl)
  rw [val_main_v24_apply, val_main_v21_apply, val_main_v23_apply, val_main_v22_apply, eb2]
  unfold mlpRow
  refine congrArg (· + x6 (ix1 q)) (Finset.sum_congr rfl fun k _ => ?_)
  rw [el2, er2, val_main_v20_apply, val_main_v18_apply, val_main_v15_apply, val_main_v17_apply, val_main_v16_apply, eb1,
    val_main_v19_apply, val_main_cst_1_apply]
  refine congrArg (fun s => max (s + x4 (ix1 k)) (Ideal.ofBits .f32 0x00000000#32) * x5 (ix2 k q)) (Finset.sum_congr rfl fun j _ => ?_)
  rw [el1, er1, val_main_v14_apply]
  rfl

/-- The classifier at graph p, class q, over the pooled features `%69`. -/
theorem classifier_apply (x0 : (⟨S100000x64, .f32⟩ : BufTy).Contents (Elt Ideal)) (x1 : (⟨S2x1600000, .i32⟩ : BufTy).Contents (Elt Ideal)) (x2 : (⟨S100000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) (x11 : (⟨S64x64, .f32⟩ : BufTy).Contents (Elt Ideal)) (x12 : (⟨S64, .f32⟩ : BufTy).Contents (Elt Ideal)) (x13 : (⟨S64x64, .f32⟩ : BufTy).Contents (Elt Ideal)) (x14 : (⟨S64, .f32⟩ : BufTy).Contents (Elt Ideal)) (x15 : (⟨S64x64, .f32⟩ : BufTy).Contents (Elt Ideal)) (x16 : (⟨S64, .f32⟩ : BufTy).Contents (Elt Ideal)) (x17 : (⟨S64x10, .f32⟩ : BufTy).Contents (Elt Ideal)) (x18 : (⟨S10, .f32⟩ : BufTy).Contents (Elt Ideal)) (p : Fin 128) (q : Fin 10) :
    val_main_v79 (F := Ideal) x0 x1 x2 x3 x4 x5 x6 x7 x8 x9 x10 x11 x12 x13 x14 x15 x16 x17 x18 (ix2 p q)
      = mlpRow (fun j => val_main_v69 (F := Ideal) x0 x1 x2 x3 x4 x5 x6 x7 x8 x9 x10 x11 x12 x13 x14 (ix2 p j)) x15 (fun k => x16 (ix1 k))
          (fun k => x17 (ix2 k q)) (x18 (ix1 q)) := by
  have el2 : ∀ k : Fin 64, lidx_main_v76 (ix2 p q) k = ix2 p k := fun k =>
    funext fun a => Fin.ext (by match a with | ⟨0, _⟩ => rfl | ⟨1, _⟩ => rfl)
  have er2 : ∀ k : Fin 64, ridx_main_v76 (ix2 p q) k = ix2 k q := fun k =>
    funext fun a => Fin.ext (by match a with | ⟨0, _⟩ => rfl | ⟨1, _⟩ => rfl)
  have el1 : ∀ (k j : Fin 64), lidx_main_v70 (ix2 p k) j = ix2 p j := fun k j =>
    funext fun a => Fin.ext (by match a with | ⟨0, _⟩ => rfl | ⟨1, _⟩ => rfl)
  have er1 : ∀ (k j : Fin 64), ridx_main_v70 (ix2 p k) j = ix2 j k := fun k j =>
    funext fun a => Fin.ext (by match a with | ⟨0, _⟩ => rfl | ⟨1, _⟩ => rfl)
  have eb1 : ∀ k : Fin 64, idx_main_v71 (idx_main_v72 (ix2 p k)) = ix1 k := fun k =>
    funext fun a => Fin.ext (by match a with | ⟨0, _⟩ => rfl)
  have eb2 : idx_main_v77 (idx_main_v78 (ix2 p q)) = ix1 q :=
    funext fun a => Fin.ext (by match a with | ⟨0, _⟩ => rfl)
  rw [val_main_v79_apply, val_main_v76_apply, val_main_v78_apply, val_main_v77_apply, eb2]
  unfold mlpRow
  refine congrArg (· + x18 (ix1 q)) (Finset.sum_congr rfl fun k _ => ?_)
  rw [el2, er2, val_main_v75_apply, val_main_v73_apply, val_main_v70_apply, val_main_v72_apply, val_main_v71_apply, eb1,
    val_main_v74_apply, val_main_cst_11_apply]
  refine congrArg (fun s => max (s + x16 (ix1 k)) (Ideal.ofBits .f32 0x00000000#32) * x17 (ix2 k q)) (Finset.sum_congr rfl fun j _ => ?_)
  rw [el1, er1]

end Cert.ReferenceIdeal.Layers

end
-- ==== Proof.Bridge.lean ====
/-
  The launches' functions are the reference's.  A node update of features h, with the summed neighbour rows the
  reference computes from h and the edge list, with weights W₁ W₂ and with the bias vectors re-laid as one-row arrays, is
  the reference's node update: entry by entry both are `mlpRow` of the same row, the one-row array read at (0, k) being
  the bias vector at k.  Likewise the classifier on the reference's pooled features.
-/
import proofs.«141353_j85031762526245_1_alg».proof.Proof.Spec
import proofs.«141353_j85031762526245_1_alg».proof.Proof.RefLayers
import Idealize.ShloMosaic.Lib.ValueLayout

noncomputable section

namespace Cert.Gin

open Cert.ReferenceIdeal Cert.ReferenceIdeal.Read Cert.ReferenceIdeal.Layers
open Idealize.ShloMosaic Idealize.ShloMosaic.ValueIdx Cert.Lib.DenseMlp

/-- The node update on the reference's summed neighbour rows, biases as one-row arrays, is the reference's update. -/
theorem nodeUpdate_eq (x0 : (⟨S100000x64, .f32⟩ : BufTy).Contents (Elt Ideal)) (x1 : (⟨S2x1600000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal))
    (hc : (⟨1, ![64]⟩ : Shape).ShapeCasts ⟨2, ![1, 64]⟩) :
    nodeUpdate x0 (val_main_v13 (F := Ideal) x0 x1) x3 (shapeCast ⟨2, ![1, 64]⟩ x4 hc) x5 (shapeCast ⟨2, ![1, 64]⟩ x6 hc)
      = val_main_v24 (F := Ideal) x0 x1 x3 x4 x5 x6 := by
  funext i
  obtain ⟨p, q, rfl⟩ : ∃ (p : Fin 100000) (q : Fin 64), i = ix2 p q := ⟨i 0, i 1, eq_ix2 i⟩
  rw [layer_apply]
  unfold nodeUpdate
  refine mlpRow_congr (fun j => rfl) (fun j k => rfl) (fun k => ?_) (fun k => rfl) ?_
  · exact shapeCast_a_1a_apply x4 hc 0 k
  · exact shapeCast_a_1a_apply x6 hc 0 q

/-- The classifier on the reference's pooled features, biases as one-row arrays, is the reference's result. -/
theorem classify_eq (x0 : (⟨S100000x64, .f32⟩ : BufTy).Contents (Elt Ideal)) (x1 : (⟨S2x1600000, .i32⟩ : BufTy).Contents (Elt Ideal)) (x2 : (⟨S100000, .i32⟩ : BufTy).Contents (Elt Ideal)) (x3 : (⟨S64x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) (x11 : (⟨S64x64, .f32⟩ : BufTy).Contents (Elt Ideal)) (x12 : (⟨S64, .f32⟩ : BufTy).Contents (Elt Ideal)) (x13 : (⟨S64x64, .f32⟩ : BufTy).Contents (Elt Ideal)) (x14 : (⟨S64, .f32⟩ : BufTy).Contents (Elt Ideal)) (x15 : (⟨S64x64, .f32⟩ : BufTy).Contents (Elt Ideal)) (x16 : (⟨S64, .f32⟩ : BufTy).Contents (Elt Ideal)) (x17 : (⟨S64x10, .f32⟩ : BufTy).Contents (Elt Ideal)) (x18 : (⟨S10, .f32⟩ : BufTy).Contents (Elt Ideal))
    (hc : (⟨1, ![64]⟩ : Shape).ShapeCasts ⟨2, ![1, 64]⟩) (hc' : (⟨1, ![10]⟩ : Shape).ShapeCasts ⟨2, ![1, 10]⟩) :
    classify (val_main_v69 (F := Ideal) x0 x1 x2 x3 x4 x5 x6 x7 x8 x9 x10 x11 x12 x13 x14) x15 (shapeCast ⟨2, ![1, 64]⟩ x16 hc) x17 (shapeCast ⟨2, ![1, 10]⟩ x18 hc')
      = val_main_v79 (F := Ideal) x0 x1 x2 x3 x4 x5 x6 x7 x8 x9 x10 x11 x12 x13 x14 x15 x16 x17 x18 := by
  funext i
  obtain ⟨p, q, rfl⟩ : ∃ (p : Fin 128) (q : Fin 10), i = ix2 p q := ⟨i 0, i 1, eq_ix2 i⟩
  rw [classifier_apply]
  unfold classify
  refine mlpRow_congr (fun j => rfl) (fun j k => rfl) (fun k => ?_) (fun k => rfl) ?_
  · exact shapeCast_a_1a_apply x16 hc 0 k
  · exact shapeCast_a_1a_apply x18 hc' 0 q

end Cert.Gin

end
-- ==== Proof.Stages.lean ====
/-
  From launch to launch.  The buffer contents at @main's eight boundaries are a fold from the launch memory: a stretch of
  host operations rewrites its results and leaves every other buffer, a launch rewrites its result array and leaves every
  other buffer.  Walking each operand of each launch back through that fold gives what the launch finds: the features
  are the previous launch's result (the inputs, for the first), the summed neighbour rows are the reference's gather and
  sum of those features along the edge list, the weights are the arguments, the bias rows are the bias vectors re-laid as
  [1, 64] (and [1, 10]).  With each launch's array function this makes the three node updates the reference's three
  updates, the pooled features the reference's, and the result buffer the reference's result.
-/
import proofs.«141353_j85031762526245_1_alg».proof.Proof.Gen.KernelIdeal.Frame
import proofs.«141353_j85031762526245_1_alg».proof.Proof.Update0
import proofs.«141353_j85031762526245_1_alg».proof.Proof.Update1
import proofs.«141353_j85031762526245_1_alg».proof.Proof.Update2
import proofs.«141353_j85031762526245_1_alg».proof.Proof.Classifier
import proofs.«141353_j85031762526245_1_alg».proof.Proof.Bridge
import Idealize.ShloMosaic.Lib.StableHlo.Run

set_option maxRecDepth 16384

noncomputable section

namespace Cert.KernelIdeal.Stages

open Cert.KernelIdeal Cert.KernelIdeal.Gen
open Idealize.ShloMosaic Idealize.ShloMosaic.TcCoe Idealize.SL.Sem Idealize.ShloMosaic.StableHlo
open Cert.ReferenceIdeal.Read (val_main_v1 val_main_v3 val_main_v13 val_main_v24 val_main_v45 val_main_v66 val_main_v69 val_main_v79)
open Cert.Gin

variable (m : (ℓ : Loc nD τ sig) → Buf (Elt Ideal) ℓ) (ρ : Dev nD → PrngReg)

/-! ## Before the first launch: the host operations on the launch memory -/

theorem w1_arg0 (c : Dev nD) : W1 m ρ c (Proc.devRef .tc main_arg0) = (m ((c.tc : Thread nD τ).loc main_arg0)) := by
  show StableHlo.after hostOps0 (W0 m ρ c) (Proc.devRef .tc main_arg0) = _
  dsimp only [hostOps0]
  after_results
theorem w1_arg3 (c : Dev nD) : W1 m ρ c (Proc.devRef .tc main_arg3) = (m ((c.tc : Thread nD τ).loc main_arg3)) := by
  show StableHlo.after hostOps0 (W0 m ρ c) (Proc.devRef .tc main_arg3) = _
  dsimp only [hostOps0]
  after_results
theorem w1_arg5 (c : Dev nD) : W1 m ρ c (Proc.devRef .tc main_arg5) = (m ((c.tc : Thread nD τ).loc main_arg5)) := by
  show StableHlo.after hostOps0 (W0 m ρ c) (Proc.devRef .tc main_arg5) = _
  dsimp only [hostOps0]
  after_results
theorem w1_arg2 (c : Dev nD) : W1 m ρ c (Proc.devRef .tc main_arg2) = (m ((c.tc : Thread nD τ).loc main_arg2)) := by
  show StableHlo.after hostOps0 (W0 m ρ c) (Proc.devRef .tc main_arg2) = _
  dsimp only [hostOps0]
  after_results
theorem w1_arg7 (c : Dev nD) : W1 m ρ c (Proc.devRef .tc main_arg7) = (m ((c.tc : Thread nD τ).loc main_arg7)) := by
  show StableHlo.after hostOps0 (W0 m ρ c) (Proc.devRef .tc main_arg7) = _
  dsimp only [hostOps0]
  after_results
theorem w1_arg8 (c : Dev nD) : W1 m ρ c (Proc.devRef .tc main_arg8) = (m ((c.tc : Thread nD τ).loc main_arg8)) := by
  show StableHlo.after hostOps0 (W0 m ρ c) (Proc.devRef .tc main_arg8) = _
  dsimp only [hostOps0]
  after_results
theorem w1_arg9 (c : Dev nD) : W1 m ρ c (Proc.devRef .tc main_arg9) = (m ((c.tc : Thread nD τ).loc main_arg9)) := by
  show StableHlo.after hostOps0 (W0 m ρ c) (Proc.devRef .tc main_arg9) = _
  dsimp only [hostOps0]
  after_results
theorem w1_arg10 (c : Dev nD) : W1 m ρ c (Proc.devRef .tc main_arg10) = (m ((c.tc : Thread nD τ).loc main_arg10)) := by
  show StableHlo.after hostOps0 (W0 m ρ c) (Proc.devRef .tc main_arg10) = _
  dsimp only [hostOps0]
  after_results
theorem w1_arg11 (c : Dev nD) : W1 m ρ c (Proc.devRef .tc main_arg11) = (m ((c.tc : Thread nD τ).loc main_arg11)) := by
  show StableHlo.after hostOps0 (W0 m ρ c) (Proc.devRef .tc main_arg11) = _
  dsimp only [hostOps0]
  after_results
theorem w1_arg12 (c : Dev nD) : W1 m ρ c (Proc.devRef .tc main_arg12) = (m ((c.tc : Thread nD τ).loc main_arg12)) := by
  show StableHlo.after hostOps0 (W0 m ρ c) (Proc.devRef .tc main_arg12) = _
  dsimp only [hostOps0]
  after_results
theorem w1_arg13 (c : Dev nD) : W1 m ρ c (Proc.devRef .tc main_arg13) = (m ((c.tc : Thread nD τ).loc main_arg13)) := by
  show StableHlo.after hostOps0 (W0 m ρ c) (Proc.devRef .tc main_arg13) = _
  dsimp only [hostOps0]
  after_results
theorem w1_arg14 (c : Dev nD) : W1 m ρ c (Proc.devRef .tc main_arg14) = (m ((c.tc : Thread nD τ).loc main_arg14)) := by
  show StableHlo.after hostOps0 (W0 m ρ c) (Proc.devRef .tc main_arg14) = _
  dsimp only [hostOps0]
  after_results
theorem w1_arg15 (c : Dev nD) : W1 m ρ c (Proc.devRef .tc main_arg15) = (m ((c.tc : Thread nD τ).loc main_arg15)) := by
  show StableHlo.after hostOps0 (W0 m ρ c) (Proc.devRef .tc main_arg15) = _
  dsimp only [hostOps0]
  after_results
theorem w1_arg16 (c : Dev nD) : W1 m ρ c (Proc.devRef .tc main_arg16) = (m ((c.tc : Thread nD τ).loc main_arg16)) := by
  show StableHlo.after hostOps0 (W0 m ρ c) (Proc.devRef .tc main_arg16) = _
  dsimp only [hostOps0]
  after_results
theorem w1_arg17 (c : Dev nD) : W1 m ρ c (Proc.devRef .tc main_arg17) = (m ((c.tc : Thread nD τ).loc main_arg17)) := by
  show StableHlo.after hostOps0 (W0 m ρ c) (Proc.devRef .tc main_arg17) = _
  dsimp only [hostOps0]
  after_results
theorem w1_arg18 (c : Dev nD) : W1 m ρ c (Proc.devRef .tc main_arg18) = (m ((c.tc : Thread nD τ).loc main_arg18)) := by
  show StableHlo.after hostOps0 (W0 m ρ c) (Proc.devRef .tc main_arg18) = _
  dsimp only [hostOps0]
  after_results
set_option maxHeartbeats 1000000 in
/-- The summed neighbour rows the first launch finds are the reference's, of the input features and the edge list. -/
theorem w1_agg (c : Dev nD) : W1 m ρ c (Proc.devRef .tc main_v13) = val_main_v13 (F := Ideal) (m ((c.tc : Thread nD τ).loc main_arg0)) (m ((c.tc : Thread nD τ).loc main_arg1)) := by
  show StableHlo.after hostOps0 (W0 m ρ c) (Proc.devRef .tc main_v13) = _
  dsimp only [hostOps0]
  after_results_simp
  rfl
theorem w1_b1 (c : Dev nD) : W1 m ρ c (Proc.devRef .tc main_v14) = shapeCast S1x64 (m ((c.tc : Thread nD τ).loc main_arg4)) shapeCasts_S64_S1x64 := by
  show StableHlo.after hostOps0 (W0 m ρ c) (Proc.devRef .tc main_v14) = _
  dsimp only [hostOps0]
  after_results
  rfl
theorem w1_b2 (c : Dev nD) : W1 m ρ c (Proc.devRef .tc main_v15) = shapeCast S1x64 (m ((c.tc : Thread nD τ).loc main_arg6)) shapeCasts_S64_S1x64 := by
  show StableHlo.after hostOps0 (W0 m ρ c) (Proc.devRef .tc main_v15) = _
  dsimp only [hostOps0]
  after_results
  rfl
/-- The edge list's source row, and its destination row, as the reference reads them. -/
theorem w1_src (c : Dev nD) : W1 m ρ c (Proc.devRef .tc main_v1) = val_main_v1 (F := Ideal) (m ((c.tc : Thread nD τ).loc main_arg1)) := by
  show StableHlo.after hostOps0 (W0 m ρ c) (Proc.devRef .tc main_v1) = _
  dsimp only [hostOps0]
  after_results
  rfl
theorem w1_dst (c : Dev nD) : W1 m ρ c (Proc.devRef .tc main_v3) = val_main_v3 (F := Ideal) (m ((c.tc : Thread nD τ).loc main_arg1)) := by
  show StableHlo.after hostOps0 (W0 m ρ c) (Proc.devRef .tc main_v3) = _
  dsimp only [hostOps0]
  after_results
  rfl

/-! ## After the first launch -/

theorem w2_h (c : Dev nD) : W2 m ρ c (Proc.devRef .tc main_v16) = ((dat0 (V1 m ρ) c).arrAt 6 cfg0.N) := W2_arr m ρ c 6
theorem w2_src (c : Dev nD) : W2 m ρ c (Proc.devRef .tc main_v1) = val_main_v1 (F := Ideal) (m ((c.tc : Thread nD τ).loc main_arg1)) :=
  (W2_of_ne m ρ c main_v1 (by decide)).trans (w1_src m ρ c)
theorem w2_dst (c : Dev nD) : W2 m ρ c (Proc.devRef .tc main_v3) = val_main_v3 (F := Ideal) (m ((c.tc : Thread nD τ).loc main_arg1)) :=
  (W2_of_ne m ρ c main_v3 (by decide)).trans (w1_dst m ρ c)
theorem w2_arg2 (c : Dev nD) : W2 m ρ c (Proc.devRef .tc main_arg2) = (m ((c.tc : Thread nD τ).loc main_arg2)) :=
  (W2_of_ne m ρ c main_arg2 (by decide)).trans (w1_arg2 m ρ c)
theorem w2_arg7 (c : Dev nD) : W2 m ρ c (Proc.devRef .tc main_arg7) = (m ((c.tc : Thread nD τ).loc main_arg7)) :=
  (W2_of_ne m ρ c main_arg7 (by decide)).trans (w1_arg7 m ρ c)
theorem w2_arg8 (c : Dev nD) : W2 m ρ c (Proc.devRef .tc main_arg8) = (m ((c.tc : Thread nD τ).loc main_arg8)) :=
  (W2_of_ne m ρ c main_arg8 (by decide)).trans (w1_arg8 m ρ c)
theorem w2_arg9 (c : Dev nD) : W2 m ρ c (Proc.devRef .tc main_arg9) = (m ((c.tc : Thread nD τ).loc main_arg9)) :=
  (W2_of_ne m ρ c main_arg9 (by decide)).trans (w1_arg9 m ρ c)
theorem w2_arg10 (c : Dev nD) : W2 m ρ c (Proc.devRef .tc main_arg10) = (m ((c.tc : Thread nD τ).loc main_arg10)) :=
  (W2_of_ne m ρ c main_arg10 (by decide)).trans (w1_arg10 m ρ c)
theorem w2_arg11 (c : Dev nD) : W2 m ρ c (Proc.devRef .tc main_arg11) = (m ((c.tc : Thread nD τ).loc main_arg11)) :=
  (W2_of_ne m ρ c main_arg11 (by decide)).trans (w1_arg11 m ρ c)
theorem w2_arg12 (c : Dev nD) : W2 m ρ c (Proc.devRef .tc main_arg12) = (m ((c.tc : Thread nD τ).loc main_arg12)) :=
  (W2_of_ne m ρ c main_arg12 (by decide)).trans (w1_arg12 m ρ c)
theorem w2_arg13 (c : Dev nD) : W2 m ρ c (Proc.devRef .tc main_arg13) = (m ((c.tc : Thread nD τ).loc main_arg13)) :=
  (W2_of_ne m ρ c main_arg13 (by decide)).trans (w1_arg13 m ρ c)
theorem w2_arg14 (c : Dev nD) : W2 m ρ c (Proc.devRef .tc main_arg14) = (m ((c.tc : Thread nD τ).loc main_arg14)) :=
  (W2_of_ne m ρ c main_arg14 (by decide)).trans (w1_arg14 m ρ c)
theorem w2_arg15 (c : Dev nD) : W2 m ρ c (Proc.devRef .tc main_arg15) = (m ((c.tc : Thread nD τ).loc main_arg15)) :=
  (W2_of_ne m ρ c main_arg15 (by decide)).trans (w1_arg15 m ρ c)
theorem w2_arg16 (c : Dev nD) : W2 m ρ c (Proc.devRef .tc main_arg16) = (m ((c.tc : Thread nD τ).loc main_arg16)) :=
  (W2_of_ne m ρ c main_arg16 (by decide)).trans (w1_arg16 m ρ c)
theorem w2_arg17 (c : Dev nD) : W2 m ρ c (Proc.devRef .tc main_arg17) = (m ((c.tc : Thread nD τ).loc main_arg17)) :=
  (W2_of_ne m ρ c main_arg17 (by decide)).trans (w1_arg17 m ρ c)
theorem w2_arg18 (c : Dev nD) : W2 m ρ c (Proc.devRef .tc main_arg18) = (m ((c.tc : Thread nD τ).loc main_arg18)) :=
  (W2_of_ne m ρ c main_arg18 (by decide)).trans (w1_arg18 m ρ c)

/-! ## Before the second launch -/

theorem w3_h (c : Dev nD) : W3 m ρ c (Proc.devRef .tc main_v16) = ((dat0 (V1 m ρ) c).arrAt 6 cfg0.N) := by
  show StableHlo.after hostOps1 (W2 m ρ c) (Proc.devRef .tc main_v16) = _
  dsimp only [hostOps1]
  after_results
  exact w2_h m ρ c
set_option maxHeartbeats 1000000 in
/-- The summed neighbour rows the second launch finds: the same host operations, on the first launch's result. -/
theorem w3_agg (c : Dev nD) : W3 m ρ c (Proc.devRef .tc main_v26) = val_main_v13 (F := Ideal) ((dat0 (V1 m ρ) c).arrAt 6 cfg0.N) (m ((c.tc : Thread nD τ).loc main_arg1)) := by
  show StableHlo.after hostOps1 (W2 m ρ c) (Proc.devRef .tc main_v26) = _
  dsimp only [hostOps1]
  after_results_simp
  rw [w2_h m ρ c, w2_src m ρ c, w2_dst m ρ c]
  rfl
theorem w3_src (c : Dev nD) : W3 m ρ c (Proc.devRef .tc main_v1) = val_main_v1 (F := Ideal) (m ((c.tc : Thread nD τ).loc main_arg1)) := by
  show StableHlo.after hostOps1 (W2 m ρ c) (Proc.devRef .tc main_v1) = _
  dsimp only [hostOps1]
  after_results
  exact w2_src m ρ c
theorem w3_dst (c : Dev nD) : W3 m ρ c (Proc.devRef .tc main_v3) = val_main_v3 (F := Ideal) (m ((c.tc : Thread nD τ).loc main_arg1)) := by
  show StableHlo.after hostOps1 (W2 m ρ c) (Proc.devRef .tc main_v3) = _
  dsimp only [hostOps1]
  after_results
  exact w2_dst m ρ c
theorem w3_arg7 (c : Dev nD) : W3 m ρ c (Proc.devRef .tc main_arg7) = (m ((c.tc : Thread nD τ).loc main_arg7)) := by
  show StableHlo.after hostOps1 (W2 m ρ c) (Proc.devRef .tc main_arg7) = _
  dsimp only [hostOps1]
  after_results
  exact w2_arg7 m ρ c
theorem w3_arg9 (c : Dev nD) : W3 m ρ c (Proc.devRef .tc main_arg9) = (m ((c.tc : Thread nD τ).loc main_arg9)) := by
  show StableHlo.after hostOps1 (W2 m ρ c) (Proc.devRef .tc main_arg9) = _
  dsimp only [hostOps1]
  after_results
  exact w2_arg9 m ρ c
theorem w3_b1 (c : Dev nD) : W3 m ρ c (Proc.devRef .tc main_v27) = shapeCast S1x64 (m ((c.tc : Thread nD τ).loc main_arg8)) shapeCasts_S64_S1x64 := by
  show StableHlo.after hostOps1 (W2 m ρ c) (Proc.devRef .tc main_v27) = _
  dsimp only [hostOps1]
  after_results
  rw [w2_arg8 m ρ c]
  rfl
theorem w3_b2 (c : Dev nD) : W3 m ρ c (Proc.devRef .tc main_v28) = shapeCast S1x64 (m ((c.tc : Thread nD τ).loc main_arg10)) shapeCasts_S64_S1x64 := by
  show StableHlo.after hostOps1 (W2 m ρ c) (Proc.devRef .tc main_v28) = _
  dsimp only [hostOps1]
  after_results
  rw [w2_arg10 m ρ c]
  rfl
theorem w3_arg2 (c : Dev nD) : W3 m ρ c (Proc.devRef .tc main_arg2) = (m ((c.tc : Thread nD τ).loc main_arg2)) := by
  show StableHlo.after hostOps1 (W2 m ρ c) (Proc.devRef .tc main_arg2) = _
  dsimp only [hostOps1]
  after_results
  exact w2_arg2 m ρ c
theorem w3_arg11 (c : Dev nD) : W3 m ρ c (Proc.devRef .tc main_arg11) = (m ((c.tc : Thread nD τ).loc main_arg11)) := by
  show StableHlo.after hostOps1 (W2 m ρ c) (Proc.devRef .tc main_arg11) = _
  dsimp only [hostOps1]
  after_results
  exact w2_arg11 m ρ c
theorem w3_arg12 (c : Dev nD) : W3 m ρ c (Proc.devRef .tc main_arg12) = (m ((c.tc : Thread nD τ).loc main_arg12)) := by
  show StableHlo.after hostOps1 (W2 m ρ c) (Proc.devRef .tc main_arg12) = _
  dsimp only [hostOps1]
  after_results
  exact w2_arg12 m ρ c
theorem w3_arg13 (c : Dev nD) : W3 m ρ c (Proc.devRef .tc main_arg13) = (m ((c.tc : Thread nD τ).loc main_arg13)) := by
  show StableHlo.after hostOps1 (W2 m ρ c) (Proc.devRef .tc main_arg13) = _
  dsimp only [hostOps1]
  after_results
  exact w2_arg13 m ρ c
theorem w3_arg14 (c : Dev nD) : W3 m ρ c (Proc.devRef .tc main_arg14) = (m ((c.tc : Thread nD τ).loc main_arg14)) := by
  show StableHlo.after hostOps1 (W2 m ρ c) (Proc.devRef .tc main_arg14) = _
  dsimp only [hostOps1]
  after_results
  exact w2_arg14 m ρ c
theorem w3_arg15 (c : Dev nD) : W3 m ρ c (Proc.devRef .tc main_arg15) = (m ((c.tc : Thread nD τ).loc main_arg15)) := by
  show StableHlo.after hostOps1 (W2 m ρ c) (Proc.devRef .tc main_arg15) = _
  dsimp only [hostOps1]
  after_results
  exact w2_arg15 m ρ c
theorem w3_arg16 (c : Dev nD) : W3 m ρ c (Proc.devRef .tc main_arg16) = (m ((c.tc : Thread nD τ).loc main_arg16)) := by
  show StableHlo.after hostOps1 (W2 m ρ c) (Proc.devRef .tc main_arg16) = _
  dsimp only [hostOps1]
  after_results
  exact w2_arg16 m ρ c
theorem w3_arg17 (c : Dev nD) : W3 m ρ c (Proc.devRef .tc main_arg17) = (m ((c.tc : Thread nD τ).loc main_arg17)) := by
  show StableHlo.after hostOps1 (W2 m ρ c) (Proc.devRef .tc main_arg17) = _
  dsimp only [hostOps1]
  after_results
  exact w2_arg17 m ρ c
theorem w3_arg18 (c : Dev nD) : W3 m ρ c (Proc.devRef .tc main_arg18) = (m ((c.tc : Thread nD τ).loc main_arg18)) := by
  show StableHlo.after hostOps1 (W2 m ρ c) (Proc.devRef .tc main_arg18) = _
  dsimp only [hostOps1]
  after_results
  exact w2_arg18 m ρ c

/-! ## After the second launch -/

theorem w4_h (c : Dev nD) : W4 m ρ c (Proc.devRef .tc main_v29) = ((dat1 (V3 m ρ) c).arrAt 6 cfg1.N) := W4_arr m ρ c 6
theorem w4_src (c : Dev nD) : W4 m ρ c (Proc.devRef .tc main_v1) = val_main_v1 (F := Ideal) (m ((c.tc : Thread nD τ).loc main_arg1)) :=
  (W4_of_ne m ρ c main_v1 (by decide)).trans (w3_src m ρ c)
theorem w4_dst (c : Dev nD) : W4 m ρ c (Proc.devRef .tc main_v3) = val_main_v3 (F := Ideal) (m ((c.tc : Thread nD τ).loc main_arg1)) :=
  (W4_of_ne m ρ c main_v3 (by decide)).trans (w3_dst m ρ c)
theorem w4_arg2 (c : Dev nD) : W4 m ρ c (Proc.devRef .tc main_arg2) = (m ((c.tc : Thread nD τ).loc main_arg2)) :=
  (W4_of_ne m ρ c main_arg2 (by decide)).trans (w3_arg2 m ρ c)
theorem w4_arg11 (c : Dev nD) : W4 m ρ c (Proc.devRef .tc main_arg11) = (m ((c.tc : Thread nD τ).loc main_arg11)) :=
  (W4_of_ne m ρ c main_arg11 (by decide)).trans (w3_arg11 m ρ c)
theorem w4_arg12 (c : Dev nD) : W4 m ρ c (Proc.devRef .tc main_arg12) = (m ((c.tc : Thread nD τ).loc main_arg12)) :=
  (W4_of_ne m ρ c main_arg12 (by decide)).trans (w3_arg12 m ρ c)
theorem w4_arg13 (c : Dev nD) : W4 m ρ c (Proc.devRef .tc main_arg13) = (m ((c.tc : Thread nD τ).loc main_arg13)) :=
  (W4_of_ne m ρ c main_arg13 (by decide)).trans (w3_arg13 m ρ c)
theorem w4_arg14 (c : Dev nD) : W4 m ρ c (Proc.devRef .tc main_arg14) = (m ((c.tc : Thread nD τ).loc main_arg14)) :=
  (W4_of_ne m ρ c main_arg14 (by decide)).trans (w3_arg14 m ρ c)
theorem w4_arg15 (c : Dev nD) : W4 m ρ c (Proc.devRef .tc main_arg15) = (m ((c.tc : Thread nD τ).loc main_arg15)) :=
  (W4_of_ne m ρ c main_arg15 (by decide)).trans (w3_arg15 m ρ c)
theorem w4_arg16 (c : Dev nD) : W4 m ρ c (Proc.devRef .tc main_arg16) = (m ((c.tc : Thread nD τ).loc main_arg16)) :=
  (W4_of_ne m ρ c main_arg16 (by decide)).trans (w3_arg16 m ρ c)
theorem w4_arg17 (c : Dev nD) : W4 m ρ c (Proc.devRef .tc main_arg17) = (m ((c.tc : Thread nD τ).loc main_arg17)) :=
  (W4_of_ne m ρ c main_arg17 (by decide)).trans (w3_arg17 m ρ c)
theorem w4_arg18 (c : Dev nD) : W4 m ρ c (Proc.devRef .tc main_arg18) = (m ((c.tc : Thread nD τ).loc main_arg18)) :=
  (W4_of_ne m ρ c main_arg18 (by decide)).trans (w3_arg18 m ρ c)

/-! ## Before the third launch -/

theorem w5_h (c : Dev nD) : W5 m ρ c (Proc.devRef .tc main_v29) = ((dat1 (V3 m ρ) c).arrAt 6 cfg1.N) := by
  show StableHlo.after hostOps2 (W4 m ρ c) (Proc.devRef .tc main_v29) = _
  dsimp only [hostOps2]
  after_results
  exact w4_h m ρ c
set_option maxHeartbeats 1000000 in
/-- The summed neighbour rows the third launch finds: the same host operations, on the second launch's result. -/
theorem w5_agg (c : Dev nD) : W5 m ρ c (Proc.devRef .tc main_v39) = val_main_v13 (F := Ideal) ((dat1 (V3 m ρ) c).arrAt 6 cfg1.N) (m ((c.tc : Thread nD τ).loc main_arg1)) := by
  show StableHlo.after hostOps2 (W4 m ρ c) (Proc.devRef .tc main_v39) = _
  dsimp only [hostOps2]
  after_results_simp
  rw [w4_h m ρ c, w4_src m ρ c, w4_dst m ρ c]
  rfl
theorem w5_arg11 (c : Dev nD) : W5 m ρ c (Proc.devRef .tc main_arg11) = (m ((c.tc : Thread nD τ).loc main_arg11)) := by
  show StableHlo.after hostOps2 (W4 m ρ c) (Proc.devRef .tc main_arg11) = _
  dsimp only [hostOps2]
  after_results
  exact w4_arg11 m ρ c
theorem w5_arg13 (c : Dev nD) : W5 m ρ c (Proc.devRef .tc main_arg13) = (m ((c.tc : Thread nD τ).loc main_arg13)) := by
  show StableHlo.after hostOps2 (W4 m ρ c) (Proc.devRef .tc main_arg13) = _
  dsimp only [hostOps2]
  after_results
  exact w4_arg13 m ρ c
theorem w5_b1 (c : Dev nD) : W5 m ρ c (Proc.devRef .tc main_v40) = shapeCast S1x64 (m ((c.tc : Thread nD τ).loc main_arg12)) shapeCasts_S64_S1x64 := by
  show StableHlo.after hostOps2 (W4 m ρ c) (Proc.devRef .tc main_v40) = _
  dsimp only [hostOps2]
  after_results
  rw [w4_arg12 m ρ c]
  rfl
theorem w5_b2 (c : Dev nD) : W5 m ρ c (Proc.devRef .tc main_v41) = shapeCast S1x64 (m ((c.tc : Thread nD τ).loc main_arg14)) shapeCasts_S64_S1x64 := by
  show StableHlo.after hostOps2 (W4 m ρ c) (Proc.devRef .tc main_v41) = _
  dsimp only [hostOps2]
  after_results
  rw [w4_arg14 m ρ c]
  rfl
theorem w5_arg2 (c : Dev nD) : W5 m ρ c (Proc.devRef .tc main_arg2) = (m ((c.tc : Thread nD τ).loc main_arg2)) := by
  show StableHlo.after hostOps2 (W4 m ρ c) (Proc.devRef .tc main_arg2) = _
  dsimp only [hostOps2]
  after_results
  exact w4_arg2 m ρ c
theorem w5_arg15 (c : Dev nD) : W5 m ρ c (Proc.devRef .tc main_arg15) = (m ((c.tc : Thread nD τ).loc main_arg15)) := by
  show StableHlo.after hostOps2 (W4 m ρ c) (Proc.devRef .tc main_arg15) = _
  dsimp only [hostOps2]
  after_results
  exact w4_arg15 m ρ c
theorem w5_arg16 (c : Dev nD) : W5 m ρ c (Proc.devRef .tc main_arg16) = (m ((c.tc : Thread nD τ).loc main_arg16)) := by
  show StableHlo.after hostOps2 (W4 m ρ c) (Proc.devRef .tc main_arg16) = _
  dsimp only [hostOps2]
  after_results
  exact w4_arg16 m ρ c
theorem w5_arg17 (c : Dev nD) : W5 m ρ c (Proc.devRef .tc main_arg17) = (m ((c.tc : Thread nD τ).loc main_arg17)) := by
  show StableHlo.after hostOps2 (W4 m ρ c) (Proc.devRef .tc main_arg17) = _
  dsimp only [hostOps2]
  after_results
  exact w4_arg17 m ρ c
theorem w5_arg18 (c : Dev nD) : W5 m ρ c (Proc.devRef .tc main_arg18) = (m ((c.tc : Thread nD τ).loc main_arg18)) := by
  show StableHlo.after hostOps2 (W4 m ρ c) (Proc.devRef .tc main_arg18) = _
  dsimp only [hostOps2]
  after_results
  exact w4_arg18 m ρ c

/-! ## After the third launch -/

theorem w6_h (c : Dev nD) : W6 m ρ c (Proc.devRef .tc main_v42) = ((dat2 (V5 m ρ) c).arrAt 6 cfg2.N) := W6_arr m ρ c 6
theorem w6_arg2 (c : Dev nD) : W6 m ρ c (Proc.devRef .tc main_arg2) = (m ((c.tc : Thread nD τ).loc main_arg2)) :=
  (W6_of_ne m ρ c main_arg2 (by decide)).trans (w5_arg2 m ρ c)
theorem w6_arg15 (c : Dev nD) : W6 m ρ c (Proc.devRef .tc main_arg15) = (m ((c.tc : Thread nD τ).loc main_arg15)) :=
  (W6_of_ne m ρ c main_arg15 (by decide)).trans (w5_arg15 m ρ c)
theorem w6_arg16 (c : Dev nD) : W6 m ρ c (Proc.devRef .tc main_arg16) = (m ((c.tc : Thread nD τ).loc main_arg16)) :=
  (W6_of_ne m ρ c main_arg16 (by decide)).trans (w5_arg16 m ρ c)
theorem w6_arg17 (c : Dev nD) : W6 m ρ c (Proc.devRef .tc main_arg17) = (m ((c.tc : Thread nD τ).loc main_arg17)) :=
  (W6_of_ne m ρ c main_arg17 (by decide)).trans (w5_arg17 m ρ c)
theorem w6_arg18 (c : Dev nD) : W6 m ρ c (Proc.devRef .tc main_arg18) = (m ((c.tc : Thread nD τ).loc main_arg18)) :=
  (W6_of_ne m ρ c main_arg18 (by decide)).trans (w5_arg18 m ρ c)

/-! ## Before the classifier's launch -/

/-- The pooled features the classifier finds: the third launch's result summed into the graphs' rows. -/
theorem w7_pool (c : Dev nD) : W7 m ρ c (Proc.devRef .tc main_v45) = Host.scatterAdd (F := Ideal) scatter_S128x64_S100000x1_S100000x64_1_0_0_1 (broadcastInDim S128x64 ![] bcast_S_S128x64 (constant (F := Ideal) S_ .f32 0x00000000#32)) (broadcastInDim S100000x1 ![0] bcast_S100000_S100000x1_0 (m ((c.tc : Thread nD τ).loc main_arg2))) ((dat2 (V5 m ρ) c).arrAt 6 cfg2.N) := by
  show StableHlo.after hostOps3 (W6 m ρ c) (Proc.devRef .tc main_v45) = _
  dsimp only [hostOps3]
  after_results
  rw [w6_h m ρ c, w6_arg2 m ρ c]
theorem w7_arg15 (c : Dev nD) : W7 m ρ c (Proc.devRef .tc main_arg15) = (m ((c.tc : Thread nD τ).loc main_arg15)) := by
  show StableHlo.after hostOps3 (W6 m ρ c) (Proc.devRef .tc main_arg15) = _
  dsimp only [hostOps3]
  after_results
  exact w6_arg15 m ρ c
theorem w7_arg17 (c : Dev nD) : W7 m ρ c (Proc.devRef .tc main_arg17) = (m ((c.tc : Thread nD τ).loc main_arg17)) := by
  show StableHlo.after hostOps3 (W6 m ρ c) (Proc.devRef .tc main_arg17) = _
  dsimp only [hostOps3]
  after_results
  exact w6_arg17 m ρ c
theorem w7_b1 (c : Dev nD) : W7 m ρ c (Proc.devRef .tc main_v46) = shapeCast S1x64 (m ((c.tc : Thread nD τ).loc main_arg16)) shapeCasts_S64_S1x64 := by
  show StableHlo.after hostOps3 (W6 m ρ c) (Proc.devRef .tc main_v46) = _
  dsimp only [hostOps3]
  after_results
  rw [w6_arg16 m ρ c]
  rfl
theorem w7_b2 (c : Dev nD) : W7 m ρ c (Proc.devRef .tc main_v47) = shapeCast S1x10 (m ((c.tc : Thread nD τ).loc main_arg18)) shapeCasts_S10_S1x10 := by
  show StableHlo.after hostOps3 (W6 m ρ c) (Proc.devRef .tc main_v47) = _
  dsimp only [hostOps3]
  after_results
  rw [w6_arg18 m ρ c]
  rfl

/-! ## What each launch finds in its operand arrays -/

theorem e0_h (c : Dev nD) : V1 m ρ c main_arg0 = (m ((c.tc : Thread nD τ).loc main_arg0)) := w1_arg0 m ρ c
theorem e0_agg (c : Dev nD) : V1 m ρ c main_v13 = val_main_v13 (F := Ideal) (m ((c.tc : Thread nD τ).loc main_arg0)) (m ((c.tc : Thread nD τ).loc main_arg1)) := w1_agg m ρ c
theorem e0_W1 (c : Dev nD) : V1 m ρ c main_arg3 = (m ((c.tc : Thread nD τ).loc main_arg3)) := w1_arg3 m ρ c
theorem e0_b1 (c : Dev nD) : V1 m ρ c main_v14 = shapeCast S1x64 (m ((c.tc : Thread nD τ).loc main_arg4)) shapeCasts_S64_S1x64 := w1_b1 m ρ c
theorem e0_W2 (c : Dev nD) : V1 m ρ c main_arg5 = (m ((c.tc : Thread nD τ).loc main_arg5)) := w1_arg5 m ρ c
theorem e0_b2 (c : Dev nD) : V1 m ρ c main_v15 = shapeCast S1x64 (m ((c.tc : Thread nD τ).loc main_arg6)) shapeCasts_S64_S1x64 := w1_b2 m ρ c
theorem e1_h (c : Dev nD) : V3 m ρ c main_v16 = ((dat0 (V1 m ρ) c).arrAt 6 cfg0.N) := w3_h m ρ c
theorem e1_agg (c : Dev nD) : V3 m ρ c main_v26 = val_main_v13 (F := Ideal) ((dat0 (V1 m ρ) c).arrAt 6 cfg0.N) (m ((c.tc : Thread nD τ).loc main_arg1)) := w3_agg m ρ c
theorem e1_W1 (c : Dev nD) : V3 m ρ c main_arg7 = (m ((c.tc : Thread nD τ).loc main_arg7)) := w3_arg7 m ρ c
theorem e1_b1 (c : Dev nD) : V3 m ρ c main_v27 = shapeCast S1x64 (m ((c.tc : Thread nD τ).loc main_arg8)) shapeCasts_S64_S1x64 := w3_b1 m ρ c
theorem e1_W2 (c : Dev nD) : V3 m ρ c main_arg9 = (m ((c.tc : Thread nD τ).loc main_arg9)) := w3_arg9 m ρ c
theorem e1_b2 (c : Dev nD) : V3 m ρ c main_v28 = shapeCast S1x64 (m ((c.tc : Thread nD τ).loc main_arg10)) shapeCasts_S64_S1x64 := w3_b2 m ρ c
theorem e2_h (c : Dev nD) : V5 m ρ c main_v29 = ((dat1 (V3 m ρ) c).arrAt 6 cfg1.N) := w5_h m ρ c
theorem e2_agg (c : Dev nD) : V5 m ρ c main_v39 = val_main_v13 (F := Ideal) ((dat1 (V3 m ρ) c).arrAt 6 cfg1.N) (m ((c.tc : Thread nD τ).loc main_arg1)) := w5_agg m ρ c
theorem e2_W1 (c : Dev nD) : V5 m ρ c main_arg11 = (m ((c.tc : Thread nD τ).loc main_arg11)) := w5_arg11 m ρ c
theorem e2_b1 (c : Dev nD) : V5 m ρ c main_v40 = shapeCast S1x64 (m ((c.tc : Thread nD τ).loc main_arg12)) shapeCasts_S64_S1x64 := w5_b1 m ρ c
theorem e2_W2 (c : Dev nD) : V5 m ρ c main_arg13 = (m ((c.tc : Thread nD τ).loc main_arg13)) := w5_arg13 m ρ c
theorem e2_b2 (c : Dev nD) : V5 m ρ c main_v41 = shapeCast S1x64 (m ((c.tc : Thread nD τ).loc main_arg14)) shapeCasts_S64_S1x64 := w5_b2 m ρ c
theorem e3_pool (c : Dev nD) : V7 m ρ c main_v45 = Host.scatterAdd (F := Ideal) scatter_S128x64_S100000x1_S100000x64_1_0_0_1 (broadcastInDim S128x64 ![] bcast_S_S128x64 (constant (F := Ideal) S_ .f32 0x00000000#32)) (broadcastInDim S100000x1 ![0] bcast_S100000_S100000x1_0 (m ((c.tc : Thread nD τ).loc main_arg2))) ((dat2 (V5 m ρ) c).arrAt 6 cfg2.N) := w7_pool m ρ c
theorem e3_W1 (c : Dev nD) : V7 m ρ c main_arg15 = (m ((c.tc : Thread nD τ).loc main_arg15)) := w7_arg15 m ρ c
theorem e3_b1 (c : Dev nD) : V7 m ρ c main_v46 = shapeCast S1x64 (m ((c.tc : Thread nD τ).loc main_arg16)) shapeCasts_S64_S1x64 := w7_b1 m ρ c
theorem e3_W2 (c : Dev nD) : V7 m ρ c main_arg17 = (m ((c.tc : Thread nD τ).loc main_arg17)) := w7_arg17 m ρ c
theorem e3_b2 (c : Dev nD) : V7 m ρ c main_v47 = shapeCast S1x10 (m ((c.tc : Thread nD τ).loc main_arg18)) shapeCasts_S10_S1x10 := w7_b2 m ρ c

/-! ## The launches' results, one after the other -/

/-- The first launch's result is the reference's first node update of the inputs. -/
theorem first_update (c : Dev nD) : ((dat0 (V1 m ρ) c).arrAt 6 cfg0.N) = val_main_v24 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  rw [Update0.final (V1 m ρ) c, e0_h m ρ c, e0_agg m ρ c, e0_W1 m ρ c, e0_b1 m ρ c, e0_W2 m ρ c, e0_b2 m ρ c]
  exact nodeUpdate_eq (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) shapeCasts_S64_S1x64

/-- The second launch's result is the reference's second node update. -/
theorem second_update (c : Dev nD) : ((dat1 (V3 m ρ) c).arrAt 6 cfg1.N) = val_main_v45 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rw [Update1.final (V3 m ρ) c, e1_h m ρ c, e1_agg m ρ c, e1_W1 m ρ c, e1_b1 m ρ c, e1_W2 m ρ c, e1_b2 m ρ c]
  refine (nodeUpdate_eq ((dat0 (V1 m ρ) c).arrAt 6 cfg0.N) (m ((c.tc : Thread nD τ).loc main_arg1)) (m ((c.tc : Thread nD τ).loc main_arg7)) (m ((c.tc : Thread nD τ).loc main_arg8)) (m ((c.tc : Thread nD τ).loc main_arg9)) (m ((c.tc : Thread nD τ).loc main_arg10)) shapeCasts_S64_S1x64).trans ?_
  rw [first_update m ρ c]
  rfl

/-- The third launch's result is the reference's third node update. -/
theorem third_update (c : Dev nD) : ((dat2 (V5 m ρ) c).arrAt 6 cfg2.N) = val_main_v66 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  rw [Update2.final (V5 m ρ) c, e2_h m ρ c, e2_agg m ρ c, e2_W1 m ρ c, e2_b1 m ρ c, e2_W2 m ρ c, e2_b2 m ρ c]
  refine (nodeUpdate_eq ((dat1 (V3 m ρ) c).arrAt 6 cfg1.N) (m ((c.tc : Thread nD τ).loc main_arg1)) (m ((c.tc : Thread nD τ).loc main_arg11)) (m ((c.tc : Thread nD τ).loc main_arg12)) (m ((c.tc : Thread nD τ).loc main_arg13)) (m ((c.tc : Thread nD τ).loc main_arg14)) shapeCasts_S64_S1x64).trans ?_
  rw [second_update m ρ c]
  rfl

/-- What the result buffer holds when @main returns: the reference's result of the launch memory's arguments. -/
theorem result_eq (c : Dev nD) :
    W8 m ρ c (Proc.devRef .tc main_v48) = val_main_v79 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) := by
  refine (W8_arr m ρ c 5).trans ?_
  rw [Classifier.final (V7 m ρ) c, e3_pool m ρ c, e3_W1 m ρ c, e3_b1 m ρ c, e3_W2 m ρ c, e3_b2 m ρ c, third_update m ρ c]
  exact classify_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) shapeCasts_S64_S1x64 shapeCasts_S10_S1x10

end Cert.KernelIdeal.Stages

end
-- ==== Proof.Runs.lean ====
/-
  The two runs with their results named by one function.  The idealized kernel's result buffer and the idealized
  reference's result buffer both end at the reference's result function `%79` of the program's own argument arrays;
  the arguments end as launched.
-/
import proofs.«141353_j85031762526245_1_alg».proof.Proof.RunValue
import proofs.«141353_j85031762526245_1_alg».proof.Proof.Stages
import proofs.«141353_j85031762526245_1_alg».proof.Proof.Gen.ReferenceIdeal.Run
import proofs.«141353_j85031762526245_1_alg».proof.Proof.Gen.ReferenceIdeal.Read

noncomputable section

namespace Cert.KernelIdeal.Runs

open Cert.KernelIdeal Cert.KernelIdeal.Gen Idealize.ShloMosaic Idealize.ShloMosaic.TcCoe Idealize.SL.Sem

/-- Every weakly fair execution of the idealized kernel terminates, nothing faulting, with the result buffer at the
    reference's result of the arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v48) = Cert.ReferenceIdeal.Read.val_main_v79 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => ⟨(h c).1.trans (Cert.KernelIdeal.Stages.result_eq m ρ c), (h c).2⟩)
    (Cert.KernelIdeal.RunValue.run_result m ρ)

end Cert.KernelIdeal.Runs

namespace Cert.ReferenceIdeal.Runs

open Cert.ReferenceIdeal Cert.ReferenceIdeal.Gen Idealize.ShloMosaic Idealize.ShloMosaic.TcCoe Idealize.SL.Sem

/-- Every weakly fair execution of the idealized reference terminates, nothing faulting, with its result buffer at its
    result function of the arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v79) = Cert.ReferenceIdeal.Read.val_main_v79 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => ⟨(h c).1.trans (Cert.ReferenceIdeal.Read.val_main_v79_eq m c), (h c).2⟩)
    (Cert.ReferenceIdeal.Value.run (F := Ideal) m ρ)

end Cert.ReferenceIdeal.Runs

end
-- ==== Proof.lean ====
/-
  The proof of `Cert.Claim`: a graph network — three rounds of "add to every node's features the sum of its
  neighbours' features, then apply linear → bias → positive part → linear → bias", a sum of the node features into
  their graphs' rows, and a classifier of the same five steps — computed with four kernel launches among host
  operations, against the same network written with whole-array matrix products.

  The three frames are the generated runs.  The idealization rewrote nothing, so it is preserved trivially.  For the
  values: the gather along the edge list and the sums into rows are the same host operations in both programs and are
  never opened; the launches differ from the reference only in computing the matrix products block by block on operands
  narrowed to a shorter float format — the identity on the extended reals — and in taking the biases as one-row arrays.
  Entry by entry both sides are the same sums of the same products in the same order, so no law of arithmetic beyond
  that is used and the precondition is never opened.  The kernel's result buffer ends at the reference's result of the
  arguments (Proof/RunValue.lean, Proof/Stages.lean, Proof/Runs.lean); the reference's run is the generated one.
-/
import proofs.«141353_j85031762526245_1_alg».proof.Defs
import proofs.«141353_j85031762526245_1_alg».proof.Proof.Gen.Kernel
import proofs.«141353_j85031762526245_1_alg».proof.Proof.Gen.Kernel.Skeleton
import proofs.«141353_j85031762526245_1_alg».proof.Proof.Gen.Kernel.Launch
import proofs.«141353_j85031762526245_1_alg».proof.Proof.Gen.Kernel.Points
import proofs.«141353_j85031762526245_1_alg».proof.Proof.Gen.Kernel.Frame
import proofs.«141353_j85031762526245_1_alg».proof.Proof.Gen.KernelIdeal
import proofs.«141353_j85031762526245_1_alg».proof.Proof.Gen.KernelIdeal.Skeleton
import proofs.«141353_j85031762526245_1_alg».proof.Proof.Gen.KernelIdeal.Launch
import proofs.«141353_j85031762526245_1_alg».proof.Proof.Gen.KernelIdeal.Points
import proofs.«141353_j85031762526245_1_alg».proof.Proof.Gen.KernelIdeal.Frame
import proofs.«141353_j85031762526245_1_alg».proof.Proof.Gen.ReferenceIdeal
import proofs.«141353_j85031762526245_1_alg».proof.Proof.Gen.ReferenceIdeal.Run
import proofs.«141353_j85031762526245_1_alg».proof.Proof.Gen.ReferenceIdeal.Read
import proofs.«141353_j85031762526245_1_alg».proof.Proof.Gen.Pre_finite_inputs
import proofs.«141353_j85031762526245_1_alg».proof.Proof.RunValue
import proofs.«141353_j85031762526245_1_alg».proof.Proof.Stages
import proofs.«141353_j85031762526245_1_alg».proof.Proof.Runs
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- The idealized kernel runs and leaves its arguments as launched. -/
theorem frame_kernelIdeal : Cert.frame_KernelIdeal := fun m ρ _ => Cert.KernelIdeal.Gen.frame m ρ

/-- The idealized reference runs and leaves its arguments as launched: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end with the reference's result of those arguments. -/
theorem algebraic : Cert.algebraic_KernelIdeal_ReferenceIdeal := by
  intro m ρ m' ρ' _ hagree
  refine ⟨_, Cert.KernelIdeal.Runs.run m ρ, ?_⟩
  refine (θ_run Cert.ReferenceIdeal.defs _ _).mono (fun r h c => ⟨(h c).1.trans ?_, (h c).2⟩)
    (Cert.ReferenceIdeal.Runs.run m' ρ')
  obtain ⟨h0, h1, h2, h3, h4, h5, h6, h7, h8, h9, h10, h11, h12, h13, h14, h15, h16, h17, h18⟩ := hagree c
  rw [h0, h1, h2, h3, h4, h5, h6, h7, h8, h9, h10, h11, h12, h13, h14, h15, h16, h17, h18]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
